-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x512 : Shape := ⟨2, ![8192, 512]⟩
abbrev S8192x2048 : Shape := ⟨2, ![8192, 2048]⟩
abbrev S8192 : Shape := ⟨1, ![8192]⟩
abbrev S512x2048 : Shape := ⟨2, ![512, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_
  bcast_S_S512x2048 : S_.BroadcastsInDim S512x2048 (![] : Fin 0 → Fin S512x2048.rank)
  reducesTo_S512x2048_S_d0_1 : S512x2048.ReducesTo [0, 1] S_

variable [Facts]

def fn_part2 {F : FTy → Type} [FloatOps F] (main_arg7 : FVec F S512x2048 .f32) (main_v33 : IVec S_ 1) : IVec S_ 1 :=
  let main_v34 : FVec F S512x2048 .f32 := Host.absf main_arg7
  let main_cst_12 : FVec F S_ .f32 := constant S_ .f32 0x7F800000#32
  let main_v35 : FVec F S512x2048 .f32 := broadcastInDim S512x2048 ![] bcast_S_S512x2048 main_cst_12
  let main_v36 : IVec S512x2048 1 := cmpf .olt main_v34 main_v35
  let main_c_13 : IVec S_ 1 := constantI S_ 1 1#1
  let main_v37 : IVec S_ 1 := (fun x v => Host.reduce IntOp.andi x v reducesTo_S512x2048_S_d0_1 h_S_) main_v36 main_c_13
  let main_v38 : IVec S_ 1 := andi main_v33 main_v37
  main_v38

def fn_part1 {F : FTy → Type} [FloatOps F] (main_arg4 : FVec F S8192 .f32) (main_arg5 : FVec F S8192x512 .f32) (main_arg6 : FVec F S8192 .f32) (main_arg7 : FVec F S512x2048 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x512 .f32 := Host.absf main_arg5
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x512 .f32) (main_arg2 : FVec F S8192x2048 .f32) (main_arg3 : FVec F S8192x1024 .f32) (main_arg4 : FVec F S8192 .f32) (main_arg5 : FVec F S8192x512 .f32) (main_arg6 : FVec F S8192 .f32) (main_arg7 : FVec F S512x2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_v13 main_v16
-- ==== Kernel.lean ====
abbrev S8192x1024 : Shape := ⟨2, ![8192, 1024]⟩
abbrev S8192x512 : Shape := ⟨2, ![8192, 512]⟩
abbrev S8192x2048 : Shape := ⟨2, ![8192, 2048]⟩
abbrev S8192 : Shape := ⟨1, ![8192]⟩
abbrev S512x2048 : Shape := ⟨2, ![512, 2048]⟩
abbrev S4x2048x1024 : Shape := ⟨3, ![4, 2048, 1024]⟩
abbrev S4x2048x512 : Shape := ⟨3, ![4, 2048, 512]⟩
abbrev S4x2048 : Shape := ⟨2, ![4, 2048]⟩
abbrev S256x1024 : Shape := ⟨2, ![256, 1024]⟩
abbrev S256x512 : Shape := ⟨2, ![256, 512]⟩
abbrev S256x256 : Shape := ⟨2, ![256, 256]⟩
abbrev S4x256 : Shape := ⟨2, ![4, 256]⟩
abbrev S1x256x1024 : Shape := ⟨3, ![1, 256, 1024]⟩
abbrev S1x256x512 : Shape := ⟨3, ![1, 256, 512]⟩
abbrev S1x256 : Shape := ⟨2, ![1, 256]⟩
abbrev S256 : Shape := ⟨1, ![256]⟩
abbrev S512x256 : Shape := ⟨2, ![512, 256]⟩

abbrev nBuf : Space → Nat
  | .hbm => 17
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x2048, .f32⟩
  | .hbm, ⟨3, _⟩ => ⟨S8192x1024, .f32⟩
  | .hbm, ⟨4, _⟩ => ⟨S8192, .f32⟩
  | .hbm, ⟨5, _⟩ => ⟨S8192x512, .f32⟩
  | .hbm, ⟨6, _⟩ => ⟨S8192, .f32⟩
  | .hbm, ⟨7, _⟩ => ⟨S512x2048, .f32⟩
  | .hbm, ⟨8, _⟩ => ⟨S4x2048x1024, .f32⟩
  | .hbm, ⟨9, _⟩ => ⟨S4x2048x1024, .bf16⟩
  | .hbm, ⟨10, _⟩ => ⟨S4x2048x512, .f32⟩
  | .hbm, ⟨11, _⟩ => ⟨S4x2048x512, .bf16⟩
  | .hbm, ⟨12, _⟩ => ⟨S512x2048, .bf16⟩
  | .hbm, ⟨13, _⟩ => ⟨S8192, .f32⟩
  | .hbm, ⟨14, _⟩ => ⟨S4x2048, .f32⟩
  | .hbm, ⟨15, _⟩ => ⟨S8192x512, .f32⟩
  | .hbm, ⟨16, _⟩ => ⟨S8192x2048, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x256, .f32⟩
  | .local _ .vmem, ⟨5, _⟩ => ⟨S256x256, .f32⟩
  | .local _ .vmem, ⟨6, _⟩ => ⟨S4x2048x1024, .bf16⟩
  | .local _ .vmem, ⟨7, _⟩ => ⟨S4x2048x512, .bf16⟩
  | .local _ .vmem, ⟨8, _⟩ => ⟨S512x2048, .bf16⟩
  | .local _ .vmem, ⟨9, _⟩ => ⟨S4x2048, .f32⟩
  | .local _ .vmem, ⟨10, _⟩ => ⟨S256x512, .f32⟩
  | .local _ .vmem, ⟨11, _⟩ => ⟨S256x512, .f32⟩
  | .local _ .vmem, ⟨12, _⟩ => ⟨S256x256, .f32⟩
  | .local _ .vmem, ⟨13, _⟩ => ⟨S256x256, .f32⟩
  | .local _ .vmem, ⟨14, _⟩ => ⟨S256x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let c0_4 : Index := 0#32
  let arg1 : BitVec 32 := BitVec.ofNat 32 (i 1).val
  let c256_i32 : BitVec 32 := 256#32
  let v3 : BitVec 32 := Scalar.muli arg1 c256_i32
  let v4 : BitVec 32 := v3
  let v9 : Index := Scalar.indexCast v4
  ![0, v9.toNat]
def k0_off2 (i : grid0.Coords) : Fin 3 → Nat :=
  let c0_5 : Index := 0#32
  let arg1 : BitVec 32 := BitVec.ofNat 32 (i 1).val
  let c256_i32 : BitVec 32 := 256#32
  let v3 : BitVec 32 := Scalar.muli arg1 c256_i32
  let v4 : BitVec 32 := v3
  let v12 : Index := Scalar.indexCast v4
  let c0_6 : Index := 0#32
  ![0, v12.toNat, 0]
def k0_off3 (i : grid0.Coords) : Fin 3 → Nat :=
  let c0_7 : Index := 0#32
  let arg1 : BitVec 32 := BitVec.ofNat 32 (i 1).val
  let c256_i32 : BitVec 32 := 256#32
  let v3 : BitVec 32 := Scalar.muli arg1 c256_i32
  let v4 : BitVec 32 := v3
  let v15 : Index := Scalar.indexCast v4
  let c0_8 : Index := 0#32
  ![0, v15.toNat, 0]
def k0_off4 (i : grid0.Coords) : Fin 3 → Nat :=
  let c1 : Index := 1#32
  let arg1 : BitVec 32 := BitVec.ofNat 32 (i 1).val
  let c256_i32 : BitVec 32 := 256#32
  let v3 : BitVec 32 := Scalar.muli arg1 c256_i32
  let v4 : BitVec 32 := v3
  let v26 : Index := Scalar.indexCast v4
  let c0_10 : Index := 0#32
  ![1, v26.toNat, 0]
def k0_off5 (i : grid0.Coords) : Fin 3 → Nat :=
  let c1_11 : Index := 1#32
  let arg1 : BitVec 32 := BitVec.ofNat 32 (i 1).val
  let c256_i32 : BitVec 32 := 256#32
  let v3 : BitVec 32 := Scalar.muli arg1 c256_i32
  let v4 : BitVec 32 := v3
  let v29 : Index := Scalar.indexCast v4
  let c0_12 : Index := 0#32
  ![1, v29.toNat, 0]
def k0_off6 (i : grid0.Coords) : Fin 3 → Nat :=
  let c2 : Index := 2#32
  let arg1 : BitVec 32 := BitVec.ofNat 32 (i 1).val
  let c256_i32 : BitVec 32 := 256#32
  let v3 : BitVec 32 := Scalar.muli arg1 c256_i32
  let v4 : BitVec 32 := v3
  let v40 : Index := Scalar.indexCast v4
  let c0_15 : Index := 0#32
  ![2, v40.toNat, 0]
def k0_off7 (i : grid0.Coords) : Fin 3 → Nat :=
  let c2_16 : Index := 2#32
  let arg1 : BitVec 32 := BitVec.ofNat 32 (i 1).val
  let c256_i32 : BitVec 32 := 256#32
  let v3 : BitVec 32 := Scalar.muli arg1 c256_i32
  let v4 : BitVec 32 := v3
  let v43 : Index := Scalar.indexCast v4
  let c0_17 : Index := 0#32
  ![2, v43.toNat, 0]
def k0_off8 (i : grid0.Coords) : Fin 3 → Nat :=
  let c3 : Index := 3#32
  let arg1 : BitVec 32 := BitVec.ofNat 32 (i 1).val
  let c256_i32 : BitVec 32 := 256#32
  let v3 : BitVec 32 := Scalar.muli arg1 c256_i32
  let v4 : BitVec 32 := v3
  let v54 : Index := Scalar.indexCast v4
  let c0_20 : Index := 0#32
  ![3, v54.toNat, 0]
def k0_off9 (i : grid0.Coords) : Fin 3 → Nat :=
  let c3_21 : Index := 3#32
  let arg1 : BitVec 32 := BitVec.ofNat 32 (i 1).val
  let c256_i32 : BitVec 32 := 256#32
  let v3 : BitVec 32 := Scalar.muli arg1 c256_i32
  let v4 : BitVec 32 := v3
  let v57 : Index := Scalar.indexCast v4
  let c0_22 : Index := 0#32
  ![3, v57.toNat, 0]
def k0_off10 (i : grid0.Coords) : Fin 2 → Nat :=
  let c0_29 : Index := 0#32
  let arg1 : BitVec 32 := BitVec.ofNat 32 (i 1).val
  let c256_i32 : BitVec 32 := 256#32
  let v3 : BitVec 32 := Scalar.muli arg1 c256_i32
  let v4 : BitVec 32 := v3
  let v76 : Index := Scalar.indexCast v4
  ![0, v76.toNat]
def k0_cond2 (i : grid0.Coords) : BitVec 1 :=
  let arg1 : BitVec 32 := BitVec.ofNat 32 (i 1).val
  let c7_i32 : BitVec 32 := 7#32
  let v85 : BitVec 1 := Scalar.cmpi .eq arg1 c7_i32
  let v86 : BitVec 32 := Scalar.extui v85
  let c0_i32_35 : BitVec 32 := 0#32
  let v87 : BitVec 1 := Scalar.cmpi .ne v86 c0_i32_35
  v87

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S8192x1024_S4x2048x1024 : S8192x1024.ShapeCasts S4x2048x1024
  bitsLt_bf16_f32 : FTy.bits .bf16 < FTy.bits .f32
  shapeCasts_S8192x512_S4x2048x512 : S8192x512.ShapeCasts S4x2048x512
  shapeCasts_S8192_S4x2048 : S8192.ShapeCasts S4x2048
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x1024_S256x1024_0_0 : ∀ a, (![0, 0] : Fin 2 → Nat) a + S256x1024.size a ≤ S256x1024.size a
  h_S256x1024 : 0 < S256x1024.numel
  h_S4x256 : 0 < S4x256.numel
  shapeCasts_S4x256_S4x256 : S4x256.ShapeCasts S4x256
  h_S1x256x1024 : 0 < S1x256x1024.numel
  shapeCasts_S1x256x1024_S256x1024 : S1x256x1024.ShapeCasts S256x1024
  h_S1x256x512 : 0 < S1x256x512.numel
  shapeCasts_S1x256x512_S256x512 : S1x256x512.ShapeCasts S256x512
  slices_S4x256_o0_0_S1x256 : S4x256.Slices ![0, 0] S1x256
  shapeCasts_S1x256_S256 : S1x256.ShapeCasts S256
  shapeCasts_S256_S1x256 : S256.ShapeCasts S1x256
  broadcasts_S1x256_S256x256 : S1x256.Broadcasts S256x256
  slices_S4x256_o1_0_S1x256 : S4x256.Slices ![1, 0] S1x256
  slices_S4x256_o2_0_S1x256 : S4x256.Slices ![2, 0] S1x256
  slices_S4x256_o3_0_S1x256 : S4x256.Slices ![3, 0] S1x256
  inb_S256x256_S256x256_0_0 : ∀ a, (![0, 0] : Fin 2 → Nat) a + S256x256.size a ≤ S256x256.size a
  h_S256x256 : 0 < S256x256.numel
  h_S512x256 : 0 < S512x256.numel
  shapeCasts_S512x256_S512x256 : S512x256.ShapeCasts S512x256
  dot_S256x1024_S256x1024_S256x256_1_1_0_0_n_n_wf : DotDims.WF S256x1024 S256x1024 S256x256 [1] [1] [0] [0] [] []
  dot_S256x512_S256x512_S256x256_1_1_0_0_n_n_wf : DotDims.WF S256x512 S256x512 S256x256 [1] [1] [0] [0] [] []
  dot_S256x256_S512x256_S256x512_1_1_0_0_n_n_wf : DotDims.WF S256x256 S512x256 S256x512 [1] [1] [0] [0] [] []
  hrank0 : 0 < grid0.rank
  k0_mult1_dvd : ∀ i : grid0.Coords, 256 ∣ (k0_mult1 i).toNat
  k0_off1_inb : ∀ i : grid0.Coords, ∀ a, (k0_off1 i) a + S4x256.size a ≤ S4x2048.size a
  k0_off2_inb : ∀ i : grid0.Coords, ∀ a, (k0_off2 i) a + S1x256x1024.size a ≤ S4x2048x1024.size a
  k0_off3_inb : ∀ i : grid0.Coords, ∀ a, (k0_off3 i) a + S1x256x512.size a ≤ S4x2048x512.size a
  k0_off4_inb : ∀ i : grid0.Coords, ∀ a, (k0_off4 i) a + S1x256x1024.size a ≤ S4x2048x1024.size a
  k0_off5_inb : ∀ i : grid0.Coords, ∀ a, (k0_off5 i) a + S1x256x512.size a ≤ S4x2048x512.size a
  k0_off6_inb : ∀ i : grid0.Coords, ∀ a, (k0_off6 i) a + S1x256x1024.size a ≤ S4x2048x1024.size a
  k0_off7_inb : ∀ i : grid0.Coords, ∀ a, (k0_off7 i) a + S1x256x512.size a ≤ S4x2048x512.size a
  k0_off8_inb : ∀ i : grid0.Coords, ∀ a, (k0_off8 i) a + S1x256x1024.size a ≤ S4x2048x1024.size a
  k0_off9_inb : ∀ i : grid0.Coords, ∀ a, (k0_off9 i) a + S1x256x512.size a ≤ S4x2048x512.size a
  k0_off10_inb : ∀ i : grid0.Coords, ∀ a, (k0_off10 i) a + S512x256.size a ≤ S512x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S8192x512.size a
  hwx0_1 : ∀ i : grid0.Coords, EltTy.bits .f32 = 32 ∨ (Rect.block (s := S8192x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S8192x2048.size a
  hwx0_2 : ∀ i : grid0.Coords, EltTy.bits .f32 = 32 ∨ (Rect.block (s := S8192x2048) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x2048x1024.size a ≤ S4x2048x1024.size a
  hwx0_3 : ∀ i : grid0.Coords, EltTy.bits .bf16 = 32 ∨ (Rect.block (s := S4x2048x1024) S4x2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x2048x512.size a ≤ S4x2048x512.size a
  hwx0_4 : ∀ i : grid0.Coords, EltTy.bits .bf16 = 32 ∨ (Rect.block (s := S4x2048x512) S4x2048x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x2048.size a ≤ S4x2048.size a
  hwx0_6 : ∀ i : grid0.Coords, EltTy.bits .f32 = 32 ∨ (Rect.block (s := S4x2048) S4x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S8192x512.size a
  hwx0_7 : ∀ i : grid0.Coords, EltTy.bits .f32 = 32 ∨ (Rect.block (s := S8192x512) S256x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S8192x2048.size a
  hwx0_8 : ∀ i : grid0.Coords, EltTy.bits .f32 = 32 ∨ (Rect.block (s := S8192x2048) S256x256.size (cc0_transform_8 i) (hinb0_8 i)).WholeWords (EltTy.packing .f32)

variable [Facts₀]

def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf
def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf
def dot_S256x256_S512x256_S256x512_1_1_0_0_n_n : DotDims S256x256 S512x256 S256x512 where
  lhsContracting := [1]
  rhsContracting := [1]
  lhsNonContracting := [0]
  rhsNonContracting := [0]
  lhsBatch := []
  rhsBatch := []
  wf := dot_S256x256_S512x256_S256x512_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4x2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S4x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S256x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S256x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun _ => false | ⟨_ + 9, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x512 : Shape := ⟨2, ![8192, 512]⟩
abbrev S8192x2048 : Shape := ⟨2, ![8192, 2048]⟩
abbrev S8192 : Shape := ⟨1, ![8192]⟩
abbrev S512x2048 : Shape := ⟨2, ![512, 2048]⟩
abbrev S1024x8192 : Shape := ⟨2, ![1024, 8192]⟩
abbrev S8192x8192 : Shape := ⟨2, ![8192, 8192]⟩
abbrev S1x8192 : Shape := ⟨2, ![1, 8192]⟩
abbrev S512x8192 : Shape := ⟨2, ![512, 8192]⟩
abbrev S2048x512 : Shape := ⟨2, ![2048, 512]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x2048, .f32⟩
  | .hbm, ⟨3, _⟩ => ⟨S8192x1024, .f32⟩
  | .hbm, ⟨4, _⟩ => ⟨S8192, .f32⟩
  | .hbm, ⟨5, _⟩ => ⟨S8192x512, .f32⟩
  | .hbm, ⟨6, _⟩ => ⟨S8192, .f32⟩
  | .hbm, ⟨7, _⟩ => ⟨S512x2048, .f32⟩
  | .hbm, ⟨8, _⟩ => ⟨S1024x8192, .f32⟩
  | .hbm, ⟨9, _⟩ => ⟨S8192x8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S512x8192, .f32⟩
  | .hbm, ⟨14, _⟩ => ⟨S8192x8192, .f32⟩
  | .hbm, ⟨15, _⟩ => ⟨S8192x8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S2048x512, .f32⟩
  | .hbm, ⟨29, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  transposes_S8192x1024_S1024x8192_1_0 : S8192x1024.Transposes [1, 0] S1024x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  transposes_S512x2048_S2048x512_1_0 : S512x2048.Transposes [1, 0] S2048x512
  dot_S8192x1024_S1024x8192_S8192x8192_1_0_0_1_n_n_wf : DotDims.WF S8192x1024 S1024x8192 S8192x8192 [1] [0] [0] [1] [] []
  dot_S8192x512_S512x8192_S8192x8192_1_0_0_1_n_n_wf : DotDims.WF S8192x512 S512x8192 S8192x8192 [1] [0] [0] [1] [] []
  dot_S8192x2048_S2048x512_S8192x512_1_0_0_1_n_n_wf : DotDims.WF S8192x2048 S2048x512 S8192x512 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x2048_S2048x512_S8192x512_1_0_0_1_n_n : DotDims S8192x2048 S2048x512 S8192x512 where
  lhsContracting := [1]
  rhsContracting := [0]
  lhsNonContracting := [0]
  rhsNonContracting := [1]
  lhsBatch := []
  rhsBatch := []
  wf := dot_S8192x2048_S2048x512_S8192x512_1_0_0_1_n_n_wf

class Facts : Prop extends Facts₀ where

variable [Facts]
-- ==== Proof.Spec.lean ====
/-
  The function both programs compute, index by index, on the extended reals.

  One step of an LSTM with a projection, with no squashing of the gates: for a batch row `b` and a hidden unit `h`,
  gate `g` (of four, stacked as rows `2048·g + h` of the weights and biases) is
      gate g b h = ((∑ₖ x[b,k]·w_x[2048g+h,k] + b_x[2048g+h]) + ∑ₖ hx[b,k]·w_h[2048g+h,k]) + b_h[2048g+h],
  the new cell state is   cell b h = gate 1 b h · cx[b,h] + gate 0 b h · gate 2 b h,
  and the new hidden state is   hidden b p = ∑ₕ (gate 3 b h · tanh (cell b h)) · w_proj[p,h].

  Two laws join the two programs' arrangements of these sums, and both hold on every extended real because they use
  only that addition is commutative and associative: the gate's four summands may be bracketed as
  (products + products) + (bias + bias), and a sum over 2048 hidden units is the running total of eight consecutive
  runs of 256 started from zero.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Row `h` of gate `g` among the 8192 stacked gate rows. -/
def gateRow (g : Fin 4) (h : Fin 2048) : Fin 8192 := ⟨2048 * g.val + h.val, by have := g.isLt; have := h.isLt; omega⟩

theorem gateRow_val (g : Fin 4) (h : Fin 2048) : (gateRow g h).val = 2048 * g.val + h.val := rfl

section formulas

variable (x wx : (⟨2, ![8192, 1024]⟩ : Shape).Idx → EReal) (hx wh : (⟨2, ![8192, 512]⟩ : Shape).Idx → EReal)
  (cx : (⟨2, ![8192, 2048]⟩ : Shape).Idx → EReal) (bx bh : (⟨1, ![8192]⟩ : Shape).Idx → EReal)
  (wp : (⟨2, ![512, 2048]⟩ : Shape).Idx → EReal)

/-- Gate `g` at batch row `b`, hidden unit `h`: input products, input bias, recurrent products, recurrent bias,
    added in that order. -/
def gate (g : Fin 4) (b : Fin 8192) (h : Fin 2048) : EReal :=
  (((∑ k : Fin 1024, x (ix2 b k) * wx (ix2 (gateRow g h) k)) + bx (ix1 (gateRow g h)))
    + ∑ k : Fin 512, hx (ix2 b k) * wh (ix2 (gateRow g h) k)) + bh (ix1 (gateRow g h))

/-- The new cell state: forget gate times the old cell state, plus input gate times candidate gate. -/
def cell (b : Fin 8192) (h : Fin 2048) : EReal :=
  gate x wx hx wh bx bh 1 b h * cx (ix2 b h) + gate x wx hx wh bx bh 0 b h * gate x wx hx wh bx bh 2 b h

/-- What is projected: output gate times tanh of the new cell state. -/
def gated (b : Fin 8192) (h : Fin 2048) : EReal :=
  gate x wx hx wh bx bh 3 b h * Ideal.tanh (cell x wx hx wh cx bx bh b h)

/-- The new hidden state: the projection of `gated` along the hidden axis. -/
def hidden (b : Fin 8192) (p : Fin 512) : EReal :=
  ∑ h : Fin 2048, gated x wx hx wh cx bx bh b h * wp (ix2 p h)

/-- The cell-state result array. -/
def cellArr : (⟨2, ![8192, 2048]⟩ : Shape).Idx → EReal :=
  fun i => cell x wx hx wh cx bx bh ⟨(i 0).val, (i 0).isLt⟩ ⟨(i 1).val, (i 1).isLt⟩

/-- The hidden-state result array. -/
def hiddenArr : (⟨2, ![8192, 512]⟩ : Shape).Idx → EReal :=
  fun i => hidden x wx hx wh cx bx bh wp ⟨(i 0).val, (i 0).isLt⟩ ⟨(i 1).val, (i 1).isLt⟩

end formulas

/-! ## The gate's summands, re-bracketed -/

/-- (products + products) + (bias + bias) is the gate's own order of addition: commutativity and associativity only. -/
theorem gate_bracket (A B p q : EReal) : (A + B) + (p + q) = ((A + p) + B) + q := by
  rw [add_add_add_comm, ← add_assoc]

/-! ## A sum over 2048 as eight consecutive runs of 256 -/

/-- `f` continued by zero past 2048. -/
def ext (f : Fin 2048 → EReal) (n : ℕ) : EReal := if h : n < 2048 then f ⟨n, h⟩ else 0

theorem ext_of_lt (f : Fin 2048 → EReal) (n : ℕ) (h : n < 2048) : ext f n = f ⟨n, h⟩ := dif_pos h

/-- The total of the first `k` runs of 256. -/
def runs (f : Fin 2048 → EReal) (k : ℕ) : EReal := ∑ n ∈ Finset.range (256 * k), ext f n

theorem runs_zero (f : Fin 2048 → EReal) : runs f 0 = 0 := by
  unfold runs; rw [Nat.mul_zero, Finset.range_zero, Finset.sum_empty]

/-- One more run: the total so far plus the 256 terms of run `k`. -/
theorem runs_succ (f : Fin 2048 → EReal) (k : ℕ) (hk : k < 8) :
    runs f (k + 1) = runs f k + ∑ j : Fin 256, f ⟨256 * k + j.val, by have := j.isLt; omega⟩ := by
  unfold runs
  rw [Nat.mul_succ, Finset.sum_range_add, ← Fin.sum_univ_eq_sum_range (fun n => ext f (256 * k + n)) 256]
  congr 1
  refine Finset.sum_congr rfl fun j _ => ?_
  exact ext_of_lt f _ (by have := j.isLt; omega)

/-- All eight runs: the whole sum. -/
theorem runs_eight (f : Fin 2048 → EReal) : runs f 8 = ∑ h : Fin 2048, f h := by
  unfold runs
  rw [show 256 * 8 = 2048 from rfl, ← Fin.sum_univ_eq_sum_range (fun n => ext f n) 2048]
  refine Finset.sum_congr rfl fun h _ => ?_
  exact ext_of_lt f _ h.isLt

end Cert.Spec

end
-- ==== Proof.Payload.lean ====
/-
  The body's arithmetic read at an index, on the extended reals.

  Each stored value of the body is a pure term of the blocks it loaded. Read at a row `r` of the batch tile and a
  column `c` of the hidden tile, with the rounding to bf16 the identity:
    * a product of the tile [256, N] with a weight slice [256, N] contracted along N, into a zero accumulator, is
      `∑ₖ l[r,k] · w[c,k]`;
    * the bias row of gate `g`, cut out of the [4, 256] bias block and spread down the 256 rows, is `bias[g,c]`;
    * the new cell tile is (gate 1) · cx + (gate 0) · (gate 2), each gate (products + products) + bias;
    * what is projected is (gate 3) · tanh (cell), and the accumulator gains `∑ⱼ gated[r,j] · wproj[p,j]`.
-/
import proofs.«135376_j61710090109320_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The three products: each output coordinate pairs a row of the left factor with a ROW of the right one -/

theorem prod1024_l0 (i : S256x256.Idx) (q : dot_S256x1024_S256x1024_S256x256_1_1_0_0_n_n.contr.Idx) : (dot_S256x1024_S256x1024_S256x256_1_1_0_0_n_n.lhsIdx i q 0).val = (i 0).val := by
  unfold DotDims.lhsIdx
  rw [dif_neg (show ¬(0 : Fin S256x1024.rank) ∈ dot_S256x1024_S256x1024_S256x256_1_1_0_0_n_n.lhsBatch by decide), dif_pos (show (0 : Fin S256x1024.rank) ∈ dot_S256x1024_S256x1024_S256x256_1_1_0_0_n_n.lhsNonContracting by decide)]
  rfl
theorem prod1024_l1 (i : S256x256.Idx) (q : dot_S256x1024_S256x1024_S256x256_1_1_0_0_n_n.contr.Idx) : (dot_S256x1024_S256x1024_S256x256_1_1_0_0_n_n.lhsIdx i q 1).val = (q ⟨0, by decide⟩).val :=
  dot_S256x1024_S256x1024_S256x256_1_1_0_0_n_n.lhsIdx_val_of_single rfl i q
theorem prod1024_r0 (i : S256x256.Idx) (q : dot_S256x1024_S256x1024_S256x256_1_1_0_0_n_n.contr.Idx) : (dot_S256x1024_S256x1024_S256x256_1_1_0_0_n_n.rhsIdx i q 0).val = (i 1).val := by
  unfold DotDims.rhsIdx
  rw [dif_neg (show ¬(0 : Fin S256x1024.rank) ∈ dot_S256x1024_S256x1024_S256x256_1_1_0_0_n_n.rhsBatch by decide), dif_pos (show (0 : Fin S256x1024.rank) ∈ dot_S256x1024_S256x1024_S256x256_1_1_0_0_n_n.rhsNonContracting by decide)]
  rfl
theorem prod1024_r1 (i : S256x256.Idx) (q : dot_S256x1024_S256x1024_S256x256_1_1_0_0_n_n.contr.Idx) : (dot_S256x1024_S256x1024_S256x256_1_1_0_0_n_n.rhsIdx i q 1).val = (q ⟨0, by decide⟩).val :=
  dot_S256x1024_S256x1024_S256x256_1_1_0_0_n_n.rhsIdx_val_of_single rfl i q

/-- Tile [256,1024] times weight slice [256,1024], contracted along 1024, into zero. -/
theorem prod1024 (l : FVec Ideal S256x1024 .bf16) (w : FVec Ideal S256x1024 .bf16) (r : Fin 256) (c : Fin 256) :
    matmul dot_S256x1024_S256x1024_S256x256_1_1_0_0_n_n none l w (constant (F := Ideal) S256x256 .f32 0x00000000#32) (ix2 r c)
      = ∑ k : Fin 1024, l (ix2 r k) * w (ix2 c k) := by
  simp only [matmul]
  rw [Ideal.matmul_constant_zero_apply, ← Equiv.sum_comp (contrEquiv1 dot_S256x1024_S256x1024_S256x256_1_1_0_0_n_n 1024 rfl rfl).symm]
  refine Finset.sum_congr rfl fun k _ => ?_
  have hk := contrEquiv1_symm_val dot_S256x1024_S256x1024_S256x256_1_1_0_0_n_n 1024 rfl rfl k
  have el : dot_S256x1024_S256x1024_S256x256_1_1_0_0_n_n.lhsIdx (ix2 r c) ((contrEquiv1 dot_S256x1024_S256x1024_S256x256_1_1_0_0_n_n 1024 rfl rfl).symm k) = ix2 r k :=
    funext fun a => Fin.ext (by
      match a with
      | ⟨0, _⟩ => exact prod1024_l0 _ _
      | ⟨1, _⟩ => exact (prod1024_l1 _ _).trans hk)
  have er : dot_S256x1024_S256x1024_S256x256_1_1_0_0_n_n.rhsIdx (ix2 r c) ((contrEquiv1 dot_S256x1024_S256x1024_S256x256_1_1_0_0_n_n 1024 rfl rfl).symm k) = ix2 c k :=
    funext fun a => Fin.ext (by
      match a with
      | ⟨0, _⟩ => exact prod1024_r0 _ _
      | ⟨1, _⟩ => exact (prod1024_r1 _ _).trans hk)
  rw [el, er]

theorem prod512_l0 (i : S256x256.Idx) (q : dot_S256x512_S256x512_S256x256_1_1_0_0_n_n.contr.Idx) : (dot_S256x512_S256x512_S256x256_1_1_0_0_n_n.lhsIdx i q 0).val = (i 0).val := by
  unfold DotDims.lhsIdx
  rw [dif_neg (show ¬(0 : Fin S256x512.rank) ∈ dot_S256x512_S256x512_S256x256_1_1_0_0_n_n.lhsBatch by decide), dif_pos (show (0 : Fin S256x512.rank) ∈ dot_S256x512_S256x512_S256x256_1_1_0_0_n_n.lhsNonContracting by decide)]
  rfl
theorem prod512_l1 (i : S256x256.Idx) (q : dot_S256x512_S256x512_S256x256_1_1_0_0_n_n.contr.Idx) : (dot_S256x512_S256x512_S256x256_1_1_0_0_n_n.lhsIdx i q 1).val = (q ⟨0, by decide⟩).val :=
  dot_S256x512_S256x512_S256x256_1_1_0_0_n_n.lhsIdx_val_of_single rfl i q
theorem prod512_r0 (i : S256x256.Idx) (q : dot_S256x512_S256x512_S256x256_1_1_0_0_n_n.contr.Idx) : (dot_S256x512_S256x512_S256x256_1_1_0_0_n_n.rhsIdx i q 0).val = (i 1).val := by
  unfold DotDims.rhsIdx
  rw [dif_neg (show ¬(0 : Fin S256x512.rank) ∈ dot_S256x512_S256x512_S256x256_1_1_0_0_n_n.rhsBatch by decide), dif_pos (show (0 : Fin S256x512.rank) ∈ dot_S256x512_S256x512_S256x256_1_1_0_0_n_n.rhsNonContracting by decide)]
  rfl
theorem prod512_r1 (i : S256x256.Idx) (q : dot_S256x512_S256x512_S256x256_1_1_0_0_n_n.contr.Idx) : (dot_S256x512_S256x512_S256x256_1_1_0_0_n_n.rhsIdx i q 1).val = (q ⟨0, by decide⟩).val :=
  dot_S256x512_S256x512_S256x256_1_1_0_0_n_n.rhsIdx_val_of_single rfl i q

/-- Tile [256,512] times weight slice [256,512], contracted along 512, into zero. -/
theorem prod512 (l : FVec Ideal S256x512 .bf16) (w : FVec Ideal S256x512 .bf16) (r : Fin 256) (c : Fin 256) :
    matmul dot_S256x512_S256x512_S256x256_1_1_0_0_n_n none l w (constant (F := Ideal) S256x256 .f32 0x00000000#32) (ix2 r c)
      = ∑ k : Fin 512, l (ix2 r k) * w (ix2 c k) := by
  simp only [matmul]
  rw [Ideal.matmul_constant_zero_apply, ← Equiv.sum_comp (contrEquiv1 dot_S256x512_S256x512_S256x256_1_1_0_0_n_n 512 rfl rfl).symm]
  refine Finset.sum_congr rfl fun k _ => ?_
  have hk := contrEquiv1_symm_val dot_S256x512_S256x512_S256x256_1_1_0_0_n_n 512 rfl rfl k
  have el : dot_S256x512_S256x512_S256x256_1_1_0_0_n_n.lhsIdx (ix2 r c) ((contrEquiv1 dot_S256x512_S256x512_S256x256_1_1_0_0_n_n 512 rfl rfl).symm k) = ix2 r k :=
    funext fun a => Fin.ext (by
      match a with
      | ⟨0, _⟩ => exact prod512_l0 _ _
      | ⟨1, _⟩ => exact (prod512_l1 _ _).trans hk)
  have er : dot_S256x512_S256x512_S256x256_1_1_0_0_n_n.rhsIdx (ix2 r c) ((contrEquiv1 dot_S256x512_S256x512_S256x256_1_1_0_0_n_n 512 rfl rfl).symm k) = ix2 c k :=
    funext fun a => Fin.ext (by
      match a with
      | ⟨0, _⟩ => exact prod512_r0 _ _
      | ⟨1, _⟩ => exact (prod512_r1 _ _).trans hk)
  rw [el, er]

theorem prod256_l0 (i : S256x512.Idx) (q : dot_S256x256_S512x256_S256x512_1_1_0_0_n_n.contr.Idx) : (dot_S256x256_S512x256_S256x512_1_1_0_0_n_n.lhsIdx i q 0).val = (i 0).val := by
  unfold DotDims.lhsIdx
  rw [dif_neg (show ¬(0 : Fin S256x256.rank) ∈ dot_S256x256_S512x256_S256x512_1_1_0_0_n_n.lhsBatch by decide), dif_pos (show (0 : Fin S256x256.rank) ∈ dot_S256x256_S512x256_S256x512_1_1_0_0_n_n.lhsNonContracting by decide)]
  rfl
theorem prod256_l1 (i : S256x512.Idx) (q : dot_S256x256_S512x256_S256x512_1_1_0_0_n_n.contr.Idx) : (dot_S256x256_S512x256_S256x512_1_1_0_0_n_n.lhsIdx i q 1).val = (q ⟨0, by decide⟩).val :=
  dot_S256x256_S512x256_S256x512_1_1_0_0_n_n.lhsIdx_val_of_single rfl i q
theorem prod256_r0 (i : S256x512.Idx) (q : dot_S256x256_S512x256_S256x512_1_1_0_0_n_n.contr.Idx) : (dot_S256x256_S512x256_S256x512_1_1_0_0_n_n.rhsIdx i q 0).val = (i 1).val := by
  unfold DotDims.rhsIdx
  rw [dif_neg (show ¬(0 : Fin S512x256.rank) ∈ dot_S256x256_S512x256_S256x512_1_1_0_0_n_n.rhsBatch by decide), dif_pos (show (0 : Fin S512x256.rank) ∈ dot_S256x256_S512x256_S256x512_1_1_0_0_n_n.rhsNonContracting by decide)]
  rfl
theorem prod256_r1 (i : S256x512.Idx) (q : dot_S256x256_S512x256_S256x512_1_1_0_0_n_n.contr.Idx) : (dot_S256x256_S512x256_S256x512_1_1_0_0_n_n.rhsIdx i q 1).val = (q ⟨0, by decide⟩).val :=
  dot_S256x256_S512x256_S256x512_1_1_0_0_n_n.rhsIdx_val_of_single rfl i q

/-- Gated tile [256,256] times projection slice [512,256], contracted along 256, into zero. -/
theorem prod256 (l : FVec Ideal S256x256 .bf16) (w : FVec Ideal S512x256 .bf16) (r : Fin 256) (c : Fin 512) :
    matmul dot_S256x256_S512x256_S256x512_1_1_0_0_n_n none l w (constant (F := Ideal) S256x512 .f32 0x00000000#32) (ix2 r c)
      = ∑ k : Fin 256, l (ix2 r k) * w (ix2 c k) := by
  simp only [matmul]
  rw [Ideal.matmul_constant_zero_apply, ← Equiv.sum_comp (contrEquiv1 dot_S256x256_S512x256_S256x512_1_1_0_0_n_n 256 rfl rfl).symm]
  refine Finset.sum_congr rfl fun k _ => ?_
  have hk := contrEquiv1_symm_val dot_S256x256_S512x256_S256x512_1_1_0_0_n_n 256 rfl rfl k
  have el : dot_S256x256_S512x256_S256x512_1_1_0_0_n_n.lhsIdx (ix2 r c) ((contrEquiv1 dot_S256x256_S512x256_S256x512_1_1_0_0_n_n 256 rfl rfl).symm k) = ix2 r k :=
    funext fun a => Fin.ext (by
      match a with
      | ⟨0, _⟩ => exact prod256_l0 _ _
      | ⟨1, _⟩ => exact (prod256_l1 _ _).trans hk)
  have er : dot_S256x256_S512x256_S256x512_1_1_0_0_n_n.rhsIdx (ix2 r c) ((contrEquiv1 dot_S256x256_S512x256_S256x512_1_1_0_0_n_n 256 rfl rfl).symm k) = ix2 c k :=
    funext fun a => Fin.ext (by
      match a with
      | ⟨0, _⟩ => exact prod256_r0 _ _
      | ⟨1, _⟩ => exact (prod256_r1 _ _).trans hk)
  rw [el, er]

/-! ## The bias rows -/

/-- Row `g` of the [4,256] bias block, cut out as [1,256] and flattened to [256]. -/
theorem cutRow_apply (bb : FVec Ideal S4x256 .f32) (o : Nat) (hs : S4x256.Slices ![o, 0] S1x256) (hc : S1x256.ShapeCasts S256)
    (g : Fin 4) (hg : g.val = o) (c : Fin 256) :
    shapeCast S256 (extractStridedSlice S1x256 ![o, 0] bb hs) hc (ix1 c) = bb (ix2 g c) := by
  rw [shapeCast_1a_a_apply, slice2_axis0_apply o bb hs (0 : Fin 1) c g (by simp [hg])]

/-- A row [256] set as [1,256] and spread down the 256 rows of a tile. -/
theorem spreadRow_apply (v : FVec Ideal S256 .f32) (hc : S256.ShapeCasts S1x256) (hb : S1x256.Broadcasts S256x256) (r c : Fin 256) :
    broadcastTo S256x256 (shapeCast S1x256 v hc) hb (ix2 r c) = v (ix1 c) := by
  rw [broadcastTo_1b_ab_apply, shapeCast_a_1a_apply]

/-- A weight slice loaded as [1,256,N] and read as [256,N]. -/
theorem slab1024_apply (w : FVec Ideal S1x256x1024 .bf16) (hc : S1x256x1024.ShapeCasts S256x1024) (c : Fin 256) (k : Fin 1024) :
    shapeCast S256x1024 w hc (ix2 c k) = w (ix3 (0 : Fin 1) c k) := shapeCast_1ab_ab_apply w hc c k
theorem slab512_apply (w : FVec Ideal S1x256x512 .bf16) (hc : S1x256x512.ShapeCasts S256x512) (c : Fin 256) (k : Fin 512) :
    shapeCast S256x512 w hc (ix2 c k) = w (ix3 (0 : Fin 1) c k) := shapeCast_1ab_ab_apply w hc c k

/-! ## The payloads -/

/-- The two products of one gate at (r, c): the input tile against the gate's input-weight slab, plus the recurrent
    tile against its recurrent-weight slab. -/
def gateProducts (xt : FVec Ideal S256x1024 .bf16) (ht : FVec Ideal S256x512 .bf16) (wx : FVec Ideal S1x256x1024 .bf16)
    (wh : FVec Ideal S1x256x512 .bf16) (r c : Fin 256) : EReal :=
  (∑ k : Fin 1024, xt (ix2 r k) * wx (ix3 (0 : Fin 1) c k)) + ∑ k : Fin 512, ht (ix2 r k) * wh (ix3 (0 : Fin 1) c k)

theorem pay3_apply (v5 : Vec Ideal S256x1024 .f32) (i : S256x1024.Idx) : k0_pay3 (F := Ideal) v5 i = v5 i := rfl
theorem pay4_apply (v7 : Vec Ideal S256x512 .f32) (i : S256x512.Idx) : k0_pay4 (F := Ideal) v7 i = v7 i := rfl
theorem pay5_eq (v10 : Vec Ideal S4x256 .f32) : k0_pay5 (F := Ideal) v10 = v10 := shapeCast_self _ _
theorem pay11_eq (v77 : Vec Ideal S512x256 .bf16) : k0_pay11 (F := Ideal) v77 = v77 := shapeCast_self _ _

/-- Gate 0 of the tile: products plus its bias row. -/
theorem pay6_apply (v5 : Vec Ideal S256x1024 .f32) (v7 : Vec Ideal S256x512 .f32) (v10 : Vec Ideal S4x256 .f32)
    (v13 : Vec Ideal S1x256x1024 .bf16) (v16 : Vec Ideal S1x256x512 .bf16) (r c : Fin 256) :
    k0_pay6 (F := Ideal) v5 v7 v10 v13 v16 (ix2 r c)
      = gateProducts (k0_pay3 (F := Ideal) v5) (k0_pay4 (F := Ideal) v7) v13 v16 r c + v10 (ix2 (0 : Fin 4) c) := by
  unfold k0_pay6 gateProducts
  simp only [addf_apply, prod1024, prod512, slab1024_apply, slab512_apply, spreadRow_apply,
    cutRow_apply _ 0 _ _ (0 : Fin 4) rfl, pay5_eq]

/-- Gate 1 of the tile without its bias: the products only. -/
theorem pay7_apply (v5 : Vec Ideal S256x1024 .f32) (v7 : Vec Ideal S256x512 .f32)
    (v27 : Vec Ideal S1x256x1024 .bf16) (v30 : Vec Ideal S1x256x512 .bf16) (r c : Fin 256) :
    k0_pay7 (F := Ideal) v5 v7 v27 v30 (ix2 r c)
      = gateProducts (k0_pay3 (F := Ideal) v5) (k0_pay4 (F := Ideal) v7) v27 v30 r c := by
  unfold k0_pay7 gateProducts
  simp only [addf_apply, prod1024, prod512, slab1024_apply, slab512_apply]

/-- Gate 1's bias row. -/
theorem pay8_apply (v10 : Vec Ideal S4x256 .f32) (c : Fin 256) :
    k0_pay8 (F := Ideal) v10 (ix1 c) = v10 (ix2 (1 : Fin 4) c) := by
  unfold k0_pay8
  simp only [cutRow_apply _ 1 _ _ (1 : Fin 4) rfl, pay5_eq]

/-- The new cell tile: (gate 1) · cx + (gate 0) · (gate 2). -/
theorem pay9_apply (v6 : FVec Ideal S256x1024 .bf16) (v8 : FVec Ideal S256x512 .bf16) (v11 : FVec Ideal S4x256 .f32)
    (v25 v34 : FVec Ideal S256x256 .f32) (v36 : FVec Ideal S256 .f32) (v41 : Vec Ideal S1x256x1024 .bf16)
    (v44 : Vec Ideal S1x256x512 .bf16) (v68 : Vec Ideal S256x256 .f32) (r c : Fin 256) :
    k0_pay9 (F := Ideal) v6 v8 v11 v25 v34 v36 v41 v44 v68 (ix2 r c)
      = (v34 (ix2 r c) + v36 (ix1 c)) * v68 (ix2 r c)
        + v25 (ix2 r c) * (gateProducts v6 v8 v41 v44 r c + v11 (ix2 (2 : Fin 4) c)) := by
  unfold k0_pay9 gateProducts
  simp only [addf_apply, mulf_apply, prod1024, prod512, slab1024_apply, slab512_apply, spreadRow_apply,
    cutRow_apply _ 2 _ _ (2 : Fin 4) rfl]

/-- What is projected: (gate 3) · tanh (cell). -/
theorem pay10_apply (v6 : FVec Ideal S256x1024 .bf16) (v8 : FVec Ideal S256x512 .bf16) (v11 : FVec Ideal S4x256 .f32)
    (v25 v34 : FVec Ideal S256x256 .f32) (v36 : FVec Ideal S256 .f32) (v41 : Vec Ideal S1x256x1024 .bf16)
    (v44 : Vec Ideal S1x256x512 .bf16) (v55 : Vec Ideal S1x256x1024 .bf16) (v58 : Vec Ideal S1x256x512 .bf16)
    (v68 : Vec Ideal S256x256 .f32) (r c : Fin 256) :
    k0_pay10 (F := Ideal) v6 v8 v11 v25 v34 v36 v41 v44 v55 v58 v68 (ix2 r c)
      = (gateProducts v6 v8 v55 v58 r c + v11 (ix2 (3 : Fin 4) c))
        * Ideal.tanh (k0_pay9 (F := Ideal) v6 v8 v11 v25 v34 v36 v41 v44 v68 (ix2 r c)) := by
  unfold k0_pay10 gateProducts
  simp only [truncf_apply, addf_apply, mulf_apply, prod1024, prod512, slab1024_apply, slab512_apply, spreadRow_apply,
    cutRow_apply _ 3 _ _ (3 : Fin 4) rfl]
  rfl

/-- The accumulator's step: what it held plus the tile's share of the projection. -/
theorem pay1_apply (v75 : FVec Ideal S256x256 .bf16) (v78 : FVec Ideal S512x256 .bf16) (v80 : Vec Ideal S256x512 .f32)
    (r : Fin 256) (p : Fin 512) :
    k0_pay1 (F := Ideal) v75 v78 v80 (ix2 r p) = v80 (ix2 r p) + ∑ k : Fin 256, v75 (ix2 r k) * v78 (ix2 p k) := by
  unfold k0_pay1
  simp only [shapeCast_self, addf_apply, prod256]

/-- The accumulator's reset: zero everywhere. -/
theorem pay2_apply (i : S256x512.Idx) : k0_pay2 (F := Ideal) i = 0 := by
  unfold k0_pay2
  simp only [shapeCast_self, broadcast_apply]
  exact Ideal.ofBits_zero_f32

end Cert.KernelIdeal.Body

end
-- ==== Proof.Pieces.lean ====
/-
  What each control case of the body leaves in the cell-state output's staging buffer, in the hidden-state output's,
  and in the accumulator it carries from one hidden tile to the next, as pure terms of the blocks it loaded.

  At a grid point with hidden-tile coordinate `k` the body reads, out of the resident weights and bias, the slabs of
  rows `256·k … 256·k + 255` of each of the four gates, and out of the projection weights the columns of the same
  range. Every case stores the new cell tile; every case adds the tile's share of the projection to the accumulator
  (the first tile of a batch row block after zeroing it, the others onto what the tile before left); the last tile
  also copies the accumulator into the hidden-state output.
-/
import proofs.«135376_j61710090109320_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl

/-! ## The slabs a point reads out of the resident arrays -/

/-- The four bias rows over the point's hidden tile. -/
abbrev biasBlk (i : grid0.Coords) (x6 : Vec F S4x2048 .f32) : Vec F S4x256 .f32 :=
  View.ld x6 (Rect.unit (k0_off1 i) S4x256.size (k0_off1_inb i))
/-- Gate 0's input-weight and recurrent-weight rows over the point's hidden tile; then gates 1, 2, 3. -/
abbrev wxSlab0 (i : grid0.Coords) (x3 : Vec F S4x2048x1024 .bf16) : Vec F S1x256x1024 .bf16 :=
  View.ld x3 (Rect.unit (k0_off2 i) S1x256x1024.size (k0_off2_inb i))
abbrev whSlab0 (i : grid0.Coords) (x4 : Vec F S4x2048x512 .bf16) : Vec F S1x256x512 .bf16 :=
  View.ld x4 (Rect.unit (k0_off3 i) S1x256x512.size (k0_off3_inb i))
abbrev wxSlab1 (i : grid0.Coords) (x3 : Vec F S4x2048x1024 .bf16) : Vec F S1x256x1024 .bf16 :=
  View.ld x3 (Rect.unit (k0_off4 i) S1x256x1024.size (k0_off4_inb i))
abbrev whSlab1 (i : grid0.Coords) (x4 : Vec F S4x2048x512 .bf16) : Vec F S1x256x512 .bf16 :=
  View.ld x4 (Rect.unit (k0_off5 i) S1x256x512.size (k0_off5_inb i))
abbrev wxSlab2 (i : grid0.Coords) (x3 : Vec F S4x2048x1024 .bf16) : Vec F S1x256x1024 .bf16 :=
  View.ld x3 (Rect.unit (k0_off6 i) S1x256x1024.size (k0_off6_inb i))
abbrev whSlab2 (i : grid0.Coords) (x4 : Vec F S4x2048x512 .bf16) : Vec F S1x256x512 .bf16 :=
  View.ld x4 (Rect.unit (k0_off7 i) S1x256x512.size (k0_off7_inb i))
abbrev wxSlab3 (i : grid0.Coords) (x3 : Vec F S4x2048x1024 .bf16) : Vec F S1x256x1024 .bf16 :=
  View.ld x3 (Rect.unit (k0_off8 i) S1x256x1024.size (k0_off8_inb i))
abbrev whSlab3 (i : grid0.Coords) (x4 : Vec F S4x2048x512 .bf16) : Vec F S1x256x512 .bf16 :=
  View.ld x4 (Rect.unit (k0_off9 i) S1x256x512.size (k0_off9_inb i))
/-- The projection weights' columns over the point's hidden tile. -/
abbrev projSlab (i : grid0.Coords) (x5 : Vec F S512x2048 .bf16) : Vec F S512x256 .bf16 :=
  View.ld x5 (Rect.unit (k0_off10 i) S512x256.size (k0_off10_inb i))

/-! ## The three values a point computes -/

/-- The new cell tile. -/
def cellTile (i : grid0.Coords) (x0 : Vec F S256x1024 .f32) (x1 : Vec F S256x512 .f32) (x2 : Vec F S256x256 .f32)
    (x3 : Vec F S4x2048x1024 .bf16) (x4 : Vec F S4x2048x512 .bf16) (x6 : Vec F S4x2048 .f32) : FVec F S256x256 .f32 :=
  k0_pay9 (k0_pay3 x0) (k0_pay4 x1) (k0_pay5 (biasBlk i x6))
    (k0_pay6 x0 x1 (biasBlk i x6) (wxSlab0 i x3) (whSlab0 i x4)) (k0_pay7 x0 x1 (wxSlab1 i x3) (whSlab1 i x4))
    (k0_pay8 (biasBlk i x6)) (wxSlab2 i x3) (whSlab2 i x4) x2

/-- What the point projects: output gate times tanh of the new cell tile. -/
def gatedTile (i : grid0.Coords) (x0 : Vec F S256x1024 .f32) (x1 : Vec F S256x512 .f32) (x2 : Vec F S256x256 .f32)
    (x3 : Vec F S4x2048x1024 .bf16) (x4 : Vec F S4x2048x512 .bf16) (x6 : Vec F S4x2048 .f32) : FVec F S256x256 .bf16 :=
  k0_pay10 (k0_pay3 x0) (k0_pay4 x1) (k0_pay5 (biasBlk i x6))
    (k0_pay6 x0 x1 (biasBlk i x6) (wxSlab0 i x3) (whSlab0 i x4)) (k0_pay7 x0 x1 (wxSlab1 i x3) (whSlab1 i x4))
    (k0_pay8 (biasBlk i x6)) (wxSlab2 i x3) (whSlab2 i x4) (wxSlab3 i x3) (whSlab3 i x4) x2

/-- The accumulator after the point, over what it held before: plus the tile's share of the projection. -/
def accStep (i : grid0.Coords) (x0 : Vec F S256x1024 .f32) (x1 : Vec F S256x512 .f32) (x2 : Vec F S256x256 .f32)
    (x3 : Vec F S4x2048x1024 .bf16) (x4 : Vec F S4x2048x512 .bf16) (x5 : Vec F S512x2048 .bf16) (x6 : Vec F S4x2048 .f32)
    (acc : Vec F S256x512 .f32) : FVec F S256x512 .f32 :=
  k0_pay1 (gatedTile i x0 x1 x2 x3 x4 x6) (k0_pay11 (projSlab i x5)) acc

/-! ## The cases' pieces -/

/-- The first tile of a row block stores the new cell tile. -/
theorem cell_A (c : Dev nD) (i : grid0.Coords) (arg2 : Memref sig .tc .vmem S256x1024 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S4x2048x1024 .bf16) (harg5 : arg5.IsWhole) (arg6 : Memref sig .tc .vmem S4x2048x512 .bf16) (harg6 : arg6.IsWhole) (arg7 : Memref sig .tc .vmem S512x2048 .bf16) (harg7 : arg7.IsWhole) (arg8 : Memref sig .tc .vmem S4x2048 .f32) (harg8 : arg8.IsWhole) (arg9 : Memref sig .tc .vmem S256x512 .f32) (harg9 : arg9.IsWhole) (arg10 : Memref sig .tc .vmem S256x256 .f32) (harg10 : arg10.IsWhole) (arg11 : Memref sig .tc .vmem S256x512 .f32) (harg11 : arg11.IsWhole) (hc0 : cond0_0 i) (hc1 : ¬cond0_1 i)
    (x0 : Vec F S256x1024 .f32) (x1 : Vec F S256x512 .f32) (x2 : Vec F S256x256 .f32) (x3 : Vec F S4x2048x1024 .bf16) (x4 : Vec F S4x2048x512 .bf16) (x5 : Vec F S512x2048 .bf16) (x6 : Vec F S4x2048 .f32) :
    out0_A_8 c i arg2 harg2 arg3 harg3 arg4 harg4 arg5 harg5 arg6 harg6 arg7 harg7 arg8 harg8 arg9 harg9 arg10 harg10 arg11 harg11 hc0 hc1 x0 x1 x2 x3 x4 x5 x6 = cellTile i x0 x1 x2 x3 x4 x6 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S256x1024) hz2, View.ld_unit_zero (S := S256x512) hz2, View.ld_unit_zero (S := S256x256) hz2]
  rfl

/-- A middle tile stores the new cell tile. -/
theorem cell_B (c : Dev nD) (i : grid0.Coords) (arg2 : Memref sig .tc .vmem S256x1024 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S4x2048x1024 .bf16) (harg5 : arg5.IsWhole) (arg6 : Memref sig .tc .vmem S4x2048x512 .bf16) (harg6 : arg6.IsWhole) (arg7 : Memref sig .tc .vmem S512x2048 .bf16) (harg7 : arg7.IsWhole) (arg8 : Memref sig .tc .vmem S4x2048 .f32) (harg8 : arg8.IsWhole) (arg9 : Memref sig .tc .vmem S256x512 .f32) (harg9 : arg9.IsWhole) (arg10 : Memref sig .tc .vmem S256x256 .f32) (harg10 : arg10.IsWhole) (arg11 : Memref sig .tc .vmem S256x512 .f32) (harg11 : arg11.IsWhole) (hc0 : ¬cond0_0 i) (hc1 : ¬cond0_1 i)
    (x0 : Vec F S256x1024 .f32) (x1 : Vec F S256x512 .f32) (x2 : Vec F S256x256 .f32) (x3 : Vec F S4x2048x1024 .bf16) (x4 : Vec F S4x2048x512 .bf16) (x5 : Vec F S512x2048 .bf16) (x6 : Vec F S4x2048 .f32) (xs0 : Vec F S256x512 .f32) :
    out0_B_8 c i arg2 harg2 arg3 harg3 arg4 harg4 arg5 harg5 arg6 harg6 arg7 harg7 arg8 harg8 arg9 harg9 arg10 harg10 arg11 harg11 hc0 hc1 x0 x1 x2 x3 x4 x5 x6 xs0 = cellTile i x0 x1 x2 x3 x4 x6 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S256x1024) hz2, View.ld_unit_zero (S := S256x512) hz2, View.ld_unit_zero (S := S256x256) hz2]
  rfl

/-- The last tile stores the new cell tile. -/
theorem cell_C (c : Dev nD) (i : grid0.Coords) (arg2 : Memref sig .tc .vmem S256x1024 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S4x2048x1024 .bf16) (harg5 : arg5.IsWhole) (arg6 : Memref sig .tc .vmem S4x2048x512 .bf16) (harg6 : arg6.IsWhole) (arg7 : Memref sig .tc .vmem S512x2048 .bf16) (harg7 : arg7.IsWhole) (arg8 : Memref sig .tc .vmem S4x2048 .f32) (harg8 : arg8.IsWhole) (arg9 : Memref sig .tc .vmem S256x512 .f32) (harg9 : arg9.IsWhole) (arg10 : Memref sig .tc .vmem S256x256 .f32) (harg10 : arg10.IsWhole) (arg11 : Memref sig .tc .vmem S256x512 .f32) (harg11 : arg11.IsWhole) (hc0 : ¬cond0_0 i) (hc1 : cond0_1 i)
    (x0 : Vec F S256x1024 .f32) (x1 : Vec F S256x512 .f32) (x2 : Vec F S256x256 .f32) (x3 : Vec F S4x2048x1024 .bf16) (x4 : Vec F S4x2048x512 .bf16) (x5 : Vec F S512x2048 .bf16) (x6 : Vec F S4x2048 .f32) (xs0 : Vec F S256x512 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 xs0 = cellTile i x0 x1 x2 x3 x4 x6 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S256x1024) hz2, View.ld_unit_zero (S := S256x512) hz2, View.ld_unit_zero (S := S256x256) hz2]
  rfl

/-- The first tile zeroes the accumulator, reads the zero back and adds its share. -/
theorem acc_A (c : Dev nD) (i : grid0.Coords) (arg2 : Memref sig .tc .vmem S256x1024 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S4x2048x1024 .bf16) (harg5 : arg5.IsWhole) (arg6 : Memref sig .tc .vmem S4x2048x512 .bf16) (harg6 : arg6.IsWhole) (arg7 : Memref sig .tc .vmem S512x2048 .bf16) (harg7 : arg7.IsWhole) (arg8 : Memref sig .tc .vmem S4x2048 .f32) (harg8 : arg8.IsWhole) (arg9 : Memref sig .tc .vmem S256x512 .f32) (harg9 : arg9.IsWhole) (arg10 : Memref sig .tc .vmem S256x256 .f32) (harg10 : arg10.IsWhole) (arg11 : Memref sig .tc .vmem S256x512 .f32) (harg11 : arg11.IsWhole) (hc0 : cond0_0 i) (hc1 : ¬cond0_1 i)
    (x0 : Vec F S256x1024 .f32) (x1 : Vec F S256x512 .f32) (x2 : Vec F S256x256 .f32) (x3 : Vec F S4x2048x1024 .bf16) (x4 : Vec F S4x2048x512 .bf16) (x5 : Vec F S512x2048 .bf16) (x6 : Vec F S4x2048 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 = accStep i x0 x1 x2 x3 x4 x5 x6 (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S256x512) hz2, View.readCov_unit_zero (S := S256x512) _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S256x1024) hz2, View.ld_unit_zero (S := S256x512) hz2, View.ld_unit_zero (S := S256x256) hz2]
  rfl

/-- A middle tile adds its share onto what the tile before left. -/
theorem acc_B (c : Dev nD) (i : grid0.Coords) (arg2 : Memref sig .tc .vmem S256x1024 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S4x2048x1024 .bf16) (harg5 : arg5.IsWhole) (arg6 : Memref sig .tc .vmem S4x2048x512 .bf16) (harg6 : arg6.IsWhole) (arg7 : Memref sig .tc .vmem S512x2048 .bf16) (harg7 : arg7.IsWhole) (arg8 : Memref sig .tc .vmem S4x2048 .f32) (harg8 : arg8.IsWhole) (arg9 : Memref sig .tc .vmem S256x512 .f32) (harg9 : arg9.IsWhole) (arg10 : Memref sig .tc .vmem S256x256 .f32) (harg10 : arg10.IsWhole) (arg11 : Memref sig .tc .vmem S256x512 .f32) (harg11 : arg11.IsWhole) (hc0 : ¬cond0_0 i) (hc1 : ¬cond0_1 i)
    (x0 : Vec F S256x1024 .f32) (x1 : Vec F S256x512 .f32) (x2 : Vec F S256x256 .f32) (x3 : Vec F S4x2048x1024 .bf16) (x4 : Vec F S4x2048x512 .bf16) (x5 : Vec F S512x2048 .bf16) (x6 : Vec F S4x2048 .f32) (xs0 : Vec F S256x512 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 xs0 = accStep i x0 x1 x2 x3 x4 x5 x6 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S256x1024) hz2, View.ld_unit_zero (S := S256x512) hz2, View.ld_unit_zero (S := S256x256) hz2]
  rfl

/-- The last tile adds its share onto what the tile before left. -/
theorem acc_C (c : Dev nD) (i : grid0.Coords) (arg2 : Memref sig .tc .vmem S256x1024 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S4x2048x1024 .bf16) (harg5 : arg5.IsWhole) (arg6 : Memref sig .tc .vmem S4x2048x512 .bf16) (harg6 : arg6.IsWhole) (arg7 : Memref sig .tc .vmem S512x2048 .bf16) (harg7 : arg7.IsWhole) (arg8 : Memref sig .tc .vmem S4x2048 .f32) (harg8 : arg8.IsWhole) (arg9 : Memref sig .tc .vmem S256x512 .f32) (harg9 : arg9.IsWhole) (arg10 : Memref sig .tc .vmem S256x256 .f32) (harg10 : arg10.IsWhole) (arg11 : Memref sig .tc .vmem S256x512 .f32) (harg11 : arg11.IsWhole) (hc0 : ¬cond0_0 i) (hc1 : cond0_1 i)
    (x0 : Vec F S256x1024 .f32) (x1 : Vec F S256x512 .f32) (x2 : Vec F S256x256 .f32) (x3 : Vec F S4x2048x1024 .bf16) (x4 : Vec F S4x2048x512 .bf16) (x5 : Vec F S512x2048 .bf16) (x6 : Vec F S4x2048 .f32) (xs0 : Vec F S256x512 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 xs0 = accStep i x0 x1 x2 x3 x4 x5 x6 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S256x1024) hz2, View.ld_unit_zero (S := S256x512) hz2, View.ld_unit_zero (S := S256x256) hz2]
  rfl

/-- The last tile copies the finished accumulator into the hidden-state output. -/
theorem hid_C (c : Dev nD) (i : grid0.Coords) (arg2 : Memref sig .tc .vmem S256x1024 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S4x2048x1024 .bf16) (harg5 : arg5.IsWhole) (arg6 : Memref sig .tc .vmem S4x2048x512 .bf16) (harg6 : arg6.IsWhole) (arg7 : Memref sig .tc .vmem S512x2048 .bf16) (harg7 : arg7.IsWhole) (arg8 : Memref sig .tc .vmem S4x2048 .f32) (harg8 : arg8.IsWhole) (arg9 : Memref sig .tc .vmem S256x512 .f32) (harg9 : arg9.IsWhole) (arg10 : Memref sig .tc .vmem S256x256 .f32) (harg10 : arg10.IsWhole) (arg11 : Memref sig .tc .vmem S256x512 .f32) (harg11 : arg11.IsWhole) (hc0 : ¬cond0_0 i) (hc1 : cond0_1 i)
    (x0 : Vec F S256x1024 .f32) (x1 : Vec F S256x512 .f32) (x2 : Vec F S256x256 .f32) (x3 : Vec F S4x2048x1024 .bf16) (x4 : Vec F S4x2048x512 .bf16) (x5 : Vec F S512x2048 .bf16) (x6 : Vec F S4x2048 .f32) (xs0 : Vec F S256x512 .f32) :
    out0_C_7 c i arg2 harg2 arg3 harg3 arg4 harg4 arg5 harg5 arg6 harg6 arg7 harg7 arg8 harg8 arg9 harg9 arg10 harg10 arg11 harg11 hc0 hc1 x0 x1 x2 x3 x4 x5 x6 xs0 = accStep i x0 x1 x2 x3 x4 x5 x6 xs0 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz2, View.readCov_unit_zero (S := S256x512) _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S256x1024) hz2, View.ld_unit_zero (S := S256x512) hz2, View.ld_unit_zero (S := S256x256) hz2]
  rfl

end Cert.KernelIdeal.Pieces

end
-- ==== Proof.Tile.lean ====
/-
  One grid point's three values are the specification's, read at the point's rows and columns.

  A point works on batch rows `256·bt … 256·bt + 255` and hidden units `256·kt … 256·kt + 255`. Its input tiles are
  those rows of `x`, `hx` and (at those columns) `cx`; its weight slabs are the rows `2048·g + 256·kt + c` of the
  stacked gate weights, for each gate `g`; the bias block it reads holds the SUM of the two biases at those rows. Under
  those readings the cell tile at (r, c) is the specification's cell at (256·bt + r, 256·kt + c): each gate is
  (products + products) + (bias + bias), which is the specification's order of addition re-bracketed. Likewise the
  projected tile is the specification's gated value, and the accumulator gains that tile's 256 terms of the projection.
-/
import proofs.«135376_j61710090109320_2_alg».proof.Proof.Spec
import proofs.«135376_j61710090109320_2_alg».proof.Proof.Payload
import proofs.«135376_j61710090109320_2_alg».proof.Proof.Pieces

noncomputable section

namespace Cert.KernelIdeal.Tile

open Cert.KernelIdeal Cert.KernelIdeal.Gen Idealize.ShloMosaic Idealize.ShloMosaic.ValueIdx
open Cert.KernelIdeal.Body Cert.KernelIdeal.Pieces Cert.Spec

/-- Batch row `r` of batch tile `bt`. -/
def brow (bt : Fin 32) (r : Fin 256) : Fin 8192 := ⟨256 * bt.val + r.val, by have := bt.isLt; have := r.isLt; omega⟩
/-- Hidden unit `j` of hidden tile `kt`. -/
def hcol (kt : Fin 8) (j : Fin 256) : Fin 2048 := ⟨256 * kt.val + j.val, by have := kt.isLt; have := j.isLt; omega⟩

theorem brow_val (bt : Fin 32) (r : Fin 256) : (brow bt r).val = 256 * bt.val + r.val := rfl
theorem hcol_val (kt : Fin 8) (j : Fin 256) : (hcol kt j).val = 256 * kt.val + j.val := rfl

/-! ## Slabs read at an index -/

/-- A [1,256,n] slab cut out of a [4,2048,n] array at gate `g`, hidden tile `kt`. -/
theorem slab3_apply {Val : EltTy → Type} {e : EltTy} {n : Nat} (X : (⟨3, ![4, 2048, n]⟩ : Shape).Idx → Val e) (off : Fin 3 → Nat)
    (inb : ∀ a, off a + (⟨3, ![1, 256, n]⟩ : Shape).size a ≤ (⟨3, ![4, 2048, n]⟩ : Shape).size a)
    (g : Fin 4) (kt : Fin 8) (hoff : off = ![g.val, 256 * kt.val, 0]) (u : Fin 1) (c : Fin 256) (k : Fin n) :
    View.ld X (Rect.unit off (⟨3, ![1, 256, n]⟩ : Shape).size inb) (ix3 u c k) = X (ix3 g (hcol kt c) k) := by
  subst hoff
  show X _ = X _
  congr 1
  funext a
  apply Fin.ext
  have hu : u.val = 0 := by omega
  match a with
  | ⟨0, _⟩ => show g.val + 1 * u.val = g.val; omega
  | ⟨1, _⟩ => show 256 * kt.val + 1 * c.val = 256 * kt.val + c.val; omega
  | ⟨2, _⟩ => show 0 + 1 * k.val = k.val; omega

/-- An [n,256] slab of columns cut out of an [n,2048] array at hidden tile `kt`. -/
theorem slab2_apply {Val : EltTy → Type} {e : EltTy} {n : Nat} (X : (⟨2, ![n, 2048]⟩ : Shape).Idx → Val e) (off : Fin 2 → Nat)
    (inb : ∀ a, off a + (⟨2, ![n, 256]⟩ : Shape).size a ≤ (⟨2, ![n, 2048]⟩ : Shape).size a)
    (kt : Fin 8) (hoff : off = ![0, 256 * kt.val]) (p : Fin n) (j : Fin 256) :
    View.ld X (Rect.unit off (⟨2, ![n, 256]⟩ : Shape).size inb) (ix2 p j) = X (ix2 p (hcol kt j)) := by
  subst hoff
  show X _ = X _
  congr 1
  funext a
  apply Fin.ext
  match a with
  | ⟨0, _⟩ => show 0 + 1 * p.val = p.val; omega
  | ⟨1, _⟩ => show 256 * kt.val + 1 * j.val = 256 * kt.val + j.val; omega

/-! ## One gate -/

section point

variable (X0 X3 : (⟨2, ![8192, 1024]⟩ : Shape).Idx → EReal) (X1 X5 : (⟨2, ![8192, 512]⟩ : Shape).Idx → EReal)
  (X2 : (⟨2, ![8192, 2048]⟩ : Shape).Idx → EReal) (X4 X6 : (⟨1, ![8192]⟩ : Shape).Idx → EReal)
  (X7 : (⟨2, ![512, 2048]⟩ : Shape).Idx → EReal)

/-- Products plus the summed bias is the specification's gate. -/
theorem gate_apply (xt : FVec Ideal S256x1024 .bf16) (ht : FVec Ideal S256x512 .bf16) (wx : FVec Ideal S1x256x1024 .bf16)
    (wh : FVec Ideal S1x256x512 .bf16) (bias : EReal) (g : Fin 4) (bt : Fin 32) (kt : Fin 8) (r j : Fin 256)
    (h0 : ∀ k, xt (ix2 r k) = X0 (ix2 (brow bt r) k)) (h1 : ∀ k, ht (ix2 r k) = X1 (ix2 (brow bt r) k))
    (hwx : ∀ k, wx (ix3 (0 : Fin 1) j k) = X3 (ix2 (gateRow g (hcol kt j)) k))
    (hwh : ∀ k, wh (ix3 (0 : Fin 1) j k) = X5 (ix2 (gateRow g (hcol kt j)) k))
    (hb : bias = X4 (ix1 (gateRow g (hcol kt j))) + X6 (ix1 (gateRow g (hcol kt j)))) :
    gateProducts xt ht wx wh r j + bias = gate X0 X3 X1 X5 X4 X6 g (brow bt r) (hcol kt j) := by
  unfold gateProducts gate
  rw [hb, gate_bracket]
  simp only [h0, h1, hwx, hwh]

/-! ## What a point's blocks read -/

/-- The readings of a point of batch tile `bt` and hidden tile `kt`: its input tiles are rows of the arguments, its
    resident arrays the stacked gate weights, the projection weights, and the two biases summed. -/
structure Reads (i : grid0.Coords) (bt : Fin 32) (kt : Fin 8) (x0 : Vec Ideal S256x1024 .f32) (x1 : Vec Ideal S256x512 .f32)
    (x2 : Vec Ideal S256x256 .f32) (x3 : Vec Ideal S4x2048x1024 .bf16) (x4 : Vec Ideal S4x2048x512 .bf16)
    (x5 : Vec Ideal S512x2048 .bf16) (x6 : Vec Ideal S4x2048 .f32) : Prop where
  hi : (i 1).val = kt.val
  h0 : ∀ r k, x0 (ix2 r k) = X0 (ix2 (brow bt r) k)
  h1 : ∀ r k, x1 (ix2 r k) = X1 (ix2 (brow bt r) k)
  h2 : ∀ r j, x2 (ix2 r j) = X2 (ix2 (brow bt r) (hcol kt j))
  h3 : ∀ g h k, x3 (ix3 g h k) = X3 (ix2 (gateRow g h) k)
  h4 : ∀ g h k, x4 (ix3 g h k) = X5 (ix2 (gateRow g h) k)
  h5 : ∀ p h, x5 (ix2 p h) = X7 (ix2 p h)
  h6 : ∀ g h, x6 (ix2 g h) = X4 (ix1 (gateRow g h)) + X6 (ix1 (gateRow g h))

variable {X0 X3 X1 X5 X2 X4 X6 X7}
variable {i : grid0.Coords} {bt : Fin 32} {kt : Fin 8} {x0 : Vec Ideal S256x1024 .f32} {x1 : Vec Ideal S256x512 .f32}
  {x2 : Vec Ideal S256x256 .f32} {x3 : Vec Ideal S4x2048x1024 .bf16} {x4 : Vec Ideal S4x2048x512 .bf16}
  {x5 : Vec Ideal S512x2048 .bf16} {x6 : Vec Ideal S4x2048 .f32}

/-- The bias block at gate `g`, column `j`: the two biases of row `2048·g + 256·kt + j`, summed. -/
theorem bias_read (R : Reads X0 X3 X1 X5 X2 X4 X6 X7 i bt kt x0 x1 x2 x3 x4 x5 x6) (g : Fin 4) (j : Fin 256) :
    biasBlk (F := Ideal) i x6 (ix2 g j) = X4 (ix1 (gateRow g (hcol kt j))) + X6 (ix1 (gateRow g (hcol kt j))) := by
  exact (slab2_apply x6 (k0_off1 i) _ kt (by rw [k0_off1_eq, R.hi]) g j).trans (R.h6 g _)

/-- An input-weight slab cut at gate `g` reads the stacked input weights' row `2048·g + 256·kt + j`. -/
theorem wx_read (R : Reads X0 X3 X1 X5 X2 X4 X6 X7 i bt kt x0 x1 x2 x3 x4 x5 x6) (off : Fin 3 → Nat)
    (inb : ∀ a, off a + S1x256x1024.size a ≤ S4x2048x1024.size a) (g : Fin 4) (hoff : off = ![g.val, 256 * (i 1).val, 0])
    (j : Fin 256) (k : Fin 1024) :
    View.ld x3 (Rect.unit off S1x256x1024.size inb) (ix3 (0 : Fin 1) j k) = X3 (ix2 (gateRow g (hcol kt j)) k) := by
  rw [slab3_apply x3 off inb g kt (by rw [hoff, R.hi]) 0 j k, R.h3]

/-- A recurrent-weight slab cut at gate `g` likewise. -/
theorem wh_read (R : Reads X0 X3 X1 X5 X2 X4 X6 X7 i bt kt x0 x1 x2 x3 x4 x5 x6) (off : Fin 3 → Nat)
    (inb : ∀ a, off a + S1x256x512.size a ≤ S4x2048x512.size a) (g : Fin 4) (hoff : off = ![g.val, 256 * (i 1).val, 0])
    (j : Fin 256) (k : Fin 512) :
    View.ld x4 (Rect.unit off S1x256x512.size inb) (ix3 (0 : Fin 1) j k) = X5 (ix2 (gateRow g (hcol kt j)) k) := by
  rw [slab3_apply x4 off inb g kt (by rw [hoff, R.hi]) 0 j k, R.h4]

/-- The point's cell tile is the specification's cell at the point's rows and columns. -/
theorem cellTile_apply (R : Reads X0 X3 X1 X5 X2 X4 X6 X7 i bt kt x0 x1 x2 x3 x4 x5 x6) (r j : Fin 256) :
    cellTile (F := Ideal) i x0 x1 x2 x3 x4 x6 (ix2 r j) = cell X0 X3 X1 X5 X2 X4 X6 (brow bt r) (hcol kt j) := by
  unfold cellTile cell
  rw [pay9_apply, pay7_apply, pay8_apply, pay6_apply, pay5_eq]
  rw [gate_apply X0 X3 X1 X5 X4 X6 (k0_pay3 (F := Ideal) x0) (k0_pay4 (F := Ideal) x1) (wxSlab1 (F := Ideal) i x3) (whSlab1 (F := Ideal) i x4)
        (biasBlk (F := Ideal) i x6 (ix2 (1 : Fin 4) j)) 1 bt kt r j (R.h0 r) (R.h1 r)
        (wx_read R _ _ 1 (k0_off4_eq i) j) (wh_read R _ _ 1 (k0_off5_eq i) j) (bias_read R 1 j),
      gate_apply X0 X3 X1 X5 X4 X6 (k0_pay3 (F := Ideal) x0) (k0_pay4 (F := Ideal) x1) (wxSlab0 (F := Ideal) i x3) (whSlab0 (F := Ideal) i x4)
        (biasBlk (F := Ideal) i x6 (ix2 (0 : Fin 4) j)) 0 bt kt r j (R.h0 r) (R.h1 r)
        (wx_read R _ _ 0 (k0_off2_eq i) j) (wh_read R _ _ 0 (k0_off3_eq i) j) (bias_read R 0 j),
      gate_apply X0 X3 X1 X5 X4 X6 (k0_pay3 (F := Ideal) x0) (k0_pay4 (F := Ideal) x1) (wxSlab2 (F := Ideal) i x3) (whSlab2 (F := Ideal) i x4)
        (biasBlk (F := Ideal) i x6 (ix2 (2 : Fin 4) j)) 2 bt kt r j (R.h0 r) (R.h1 r)
        (wx_read R _ _ 2 (k0_off6_eq i) j) (wh_read R _ _ 2 (k0_off7_eq i) j) (bias_read R 2 j),
      R.h2]

/-- The point's projected tile is the specification's gated value there. -/
theorem gatedTile_apply (R : Reads X0 X3 X1 X5 X2 X4 X6 X7 i bt kt x0 x1 x2 x3 x4 x5 x6) (r j : Fin 256) :
    gatedTile (F := Ideal) i x0 x1 x2 x3 x4 x6 (ix2 r j) = gated X0 X3 X1 X5 X2 X4 X6 (brow bt r) (hcol kt j) := by
  have hc := cellTile_apply R r j
  unfold cellTile at hc
  unfold gatedTile gated
  rw [pay10_apply, hc, pay5_eq,
    gate_apply X0 X3 X1 X5 X4 X6 (k0_pay3 (F := Ideal) x0) (k0_pay4 (F := Ideal) x1) (wxSlab3 (F := Ideal) i x3) (whSlab3 (F := Ideal) i x4)
        (biasBlk (F := Ideal) i x6 (ix2 (3 : Fin 4) j)) 3 bt kt r j (R.h0 r) (R.h1 r)
        (wx_read R _ _ 3 (k0_off8_eq i) j) (wh_read R _ _ 3 (k0_off9_eq i) j) (bias_read R 3 j)]

/-- The accumulator after the point: what it held, plus the 256 terms of the projection that the point's hidden
    tile contributes. -/
theorem accStep_apply (R : Reads X0 X3 X1 X5 X2 X4 X6 X7 i bt kt x0 x1 x2 x3 x4 x5 x6) (acc : Vec Ideal S256x512 .f32)
    (r : Fin 256) (p : Fin 512) :
    accStep (F := Ideal) i x0 x1 x2 x3 x4 x5 x6 acc (ix2 r p)
      = acc (ix2 r p) + ∑ j : Fin 256, gated X0 X3 X1 X5 X2 X4 X6 (brow bt r) (hcol kt j) * X7 (ix2 p (hcol kt j)) := by
  unfold accStep
  rw [pay1_apply, pay11_eq]
  congr 1
  refine Finset.sum_congr rfl fun j _ => ?_
  rw [gatedTile_apply R r j]
  exact congrArg _ ((slab2_apply x5 (k0_off10 i) _ kt (by rw [k0_off10_eq, R.hi]) p j).trans (R.h5 p _))

end point

end Cert.KernelIdeal.Tile

end
-- ==== Proof.Blocks.lean ====
/-
  What each window's block reads at a grid point, in terms of the program's eight arguments.

  The grid is 32 batch tiles by 8 hidden tiles, the hidden coordinate moving fastest: point `t` works on batch tile
  `t / 8` and hidden tile `t % 8`. The input, the previous hidden state and the hidden-state output are cut by batch
  tile only; the old and new cell state by both. The four resident arrays are read whole, and they are what the host
  operations before the call made of the arguments: the stacked gate weights re-laid as [4, 2048, ·] (row
  `2048·g + h` at (g, h, ·)), the projection weights as they are, and the two biases added and re-laid as [4, 2048]
  — the rounding to bf16 being the identity on the extended reals.
-/
import proofs.«135376_j61710090109320_2_alg».proof.Proof.Gen.KernelIdeal.Frame
import proofs.«135376_j61710090109320_2_alg».proof.Proof.Tile
import Idealize.ShloMosaic.Lib.StableHlo.Run
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.KernelIdeal.Tile Cert.Spec

variable (m : (ℓ : Loc nD τ sig) → Buf (Elt Ideal) ℓ)

/-! ## The program's arguments on a core -/

/-- The input `x`, the previous hidden state `hx` and the old cell state `cx`. -/
abbrev argX (c : Dev nD) : (⟨2, ![8192, 1024]⟩ : Shape).Idx → EReal := m ((c : Thread nD τ).loc main_arg0)
abbrev argHx (c : Dev nD) : (⟨2, ![8192, 512]⟩ : Shape).Idx → EReal := m ((c : Thread nD τ).loc main_arg1)
abbrev argCx (c : Dev nD) : (⟨2, ![8192, 2048]⟩ : Shape).Idx → EReal := m ((c : Thread nD τ).loc main_arg2)
/-- The stacked input weights and bias, the stacked recurrent weights and bias, the projection weights. -/
abbrev argWx (c : Dev nD) : (⟨2, ![8192, 1024]⟩ : Shape).Idx → EReal := m ((c : Thread nD τ).loc main_arg3)
abbrev argBx (c : Dev nD) : (⟨1, ![8192]⟩ : Shape).Idx → EReal := m ((c : Thread nD τ).loc main_arg4)
abbrev argWh (c : Dev nD) : (⟨2, ![8192, 512]⟩ : Shape).Idx → EReal := m ((c : Thread nD τ).loc main_arg5)
abbrev argBh (c : Dev nD) : (⟨1, ![8192]⟩ : Shape).Idx → EReal := m ((c : Thread nD τ).loc main_arg6)
abbrev argWp (c : Dev nD) : (⟨2, ![512, 2048]⟩ : Shape).Idx → EReal := m ((c : Thread nD τ).loc main_arg7)

/-! ## The grid's two coordinates -/

theorem t_lt (t : Fin cfg0.N) : t.val < 256 := lt_of_lt_of_eq t.isLt (show cfg0.N = 256 from N_0)

/-- The batch tile of point `t`. -/
def btOf (t : Fin cfg0.N) : Fin 32 := ⟨t.val / 8, by have := t_lt t; omega⟩
/-- The hidden tile of point `t`. -/
def ktOf (t : Fin cfg0.N) : Fin 8 := ⟨t.val % 8, by omega⟩

theorem btOf_val (t : Fin cfg0.N) : (btOf t).val = t.val / 8 := rfl
theorem ktOf_val (t : Fin cfg0.N) : (ktOf t).val = t.val % 8 := rfl

/-- The hidden coordinate of point `t` is `t % 8`. -/
theorem coord1 : ∀ t : Fin cfg0.N, ((grid0.coords t) 1).val = t.val % 8 :=
  (by decide +kernel : ∀ t : Fin grid0.N, ((grid0.coords t) 1).val = t.val % 8)

/-- The block indices of the windows cut by batch tile, and of those cut by both tiles. -/
theorem index0 : ∀ t : Fin cfg0.N, win0_0.index t 0 = t.val / 8 ∧ win0_0.index t 1 = 0 :=
  (by decide +kernel : ∀ t : Fin grid0.N, win0_0.index t 0 = t.val / 8 ∧ win0_0.index t 1 = 0)
theorem index1 : ∀ t : Fin cfg0.N, win0_1.index t 0 = t.val / 8 ∧ win0_1.index t 1 = 0 :=
  (by decide +kernel : ∀ t : Fin grid0.N, win0_1.index t 0 = t.val / 8 ∧ win0_1.index t 1 = 0)
theorem index2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)
/-- The resident windows' one block is the whole array. -/
theorem index3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem index4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)

/-! ## The resident arrays as the call finds them -/

/-- The stacked input weights, re-laid as [4, 2048, 1024]. -/
theorem V_wx (c : Dev nD) : @Eq (S4x2048x1024.Idx → EReal) (V m c main_v1)
    (truncf (F := Ideal) .bf16 (shapeCast S4x2048x1024 (argWx m c) shapeCasts_S8192x1024_S4x2048x1024) bitsLt_bf16_f32) := by
  dsimp only [Gen.V, Gen.hostOps0]; after_results; rfl

/-- The stacked recurrent weights, re-laid as [4, 2048, 512]. -/
theorem V_wh (c : Dev nD) : @Eq (S4x2048x512.Idx → EReal) (V m c main_v3)
    (truncf (F := Ideal) .bf16 (shapeCast S4x2048x512 (argWh m c) shapeCasts_S8192x512_S4x2048x512) bitsLt_bf16_f32) := by
  dsimp only [Gen.V, Gen.hostOps0]; after_results; rfl

/-- The projection weights. -/
theorem V_wp (c : Dev nD) : @Eq (S512x2048.Idx → EReal) (V m c main_v4)
    (truncf (F := Ideal) (s := S512x2048) (φ := .f32) .bf16 (argWp m c) bitsLt_bf16_f32) := by
  dsimp only [Gen.V, Gen.hostOps0]; after_results

/-- The two biases added, re-laid as [4, 2048]. -/
theorem V_b (c : Dev nD) : @Eq (S4x2048.Idx → EReal) (V m c main_v6)
    (shapeCast S4x2048 (addf (F := Ideal) (s := S8192) (φ := .f32) (argBx m c) (argBh m c)) shapeCasts_S8192_S4x2048) := by
  dsimp only [Gen.V, Gen.hostOps0]; after_results; rfl

/-! ## The windows' blocks at a point -/

/-- The input tile: rows of batch tile `t / 8`. -/
theorem blk0 (c : Dev nD) (t : Fin cfg0.N) (r : Fin 256) (k : Fin 1024) :
    (iblk m c 0 t : Vec Ideal S256x1024 .f32) (ix2 r k) = argX m c (ix2 (brow (btOf t) r) k) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 256 + 1 * r.val = 256 * (t.val / 8) + r.val; rw [(index0 t).1]; omega
  | ⟨1, _⟩ => show win0_0.index t 1 * 1024 + 1 * k.val = k.val; rw [(index0 t).2]; omega

/-- The previous-hidden-state tile: rows of batch tile `t / 8`. -/
theorem blk1 (c : Dev nD) (t : Fin cfg0.N) (r : Fin 256) (k : Fin 512) :
    (iblk m c 1 t : Vec Ideal S256x512 .f32) (ix2 r k) = argHx m c (ix2 (brow (btOf t) r) k) := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 256 + 1 * r.val = 256 * (t.val / 8) + r.val; rw [(index1 t).1]; omega
  | ⟨1, _⟩ => show win0_1.index t 1 * 512 + 1 * k.val = k.val; rw [(index1 t).2]; omega

/-- The old-cell-state tile: rows of batch tile `t / 8`, columns of hidden tile `t % 8`. -/
theorem blk2 (c : Dev nD) (t : Fin cfg0.N) (r j : Fin 256) :
    (iblk m c 2 t : Vec Ideal S256x256 .f32) (ix2 r j) = argCx m c (ix2 (brow (btOf t) r) (hcol (ktOf t) j)) := by
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 256 + 1 * r.val = 256 * (t.val / 8) + r.val; rw [(index2 t).1]; omega
  | ⟨1, _⟩ => show win0_2.index t 1 * 256 + 1 * j.val = 256 * (t.val % 8) + j.val; rw [(index2 t).2]; omega

/-- The resident input weights at (g, h, k): row `2048·g + h` of the stacked input weights. -/
theorem blk3 (c : Dev nD) (t : Fin cfg0.N) (g : Fin 4) (h : Fin 2048) (k : Fin 1024) :
    (iblk m c 3 t : Vec Ideal S4x2048x1024 .bf16) (ix3 g h k) = argWx m c (ix2 (gateRow g h) k) := by
  unfold iblk
  rw [View.read_apply]
  show V m c main_v1 _ = _
  rw [V_wx]
  refine shapeCast_apply _ _ _ (ix2 (gateRow g h) k) ?_
  rw [Shape.rowMajor_val_two, Shape.rowMajor_val_three]
  show (2048 * g.val + h.val) * 1024 + k.val
    = ((win0_3.index t 0 * 4 + 1 * g.val) * 2048 + (win0_3.index t 1 * 2048 + 1 * h.val)) * 1024 + (win0_3.index t 2 * 1024 + 1 * k.val)
  rw [(index3 t).1, (index3 t).2.1, (index3 t).2.2]; omega

/-- The resident recurrent weights at (g, h, k): row `2048·g + h` of the stacked recurrent weights. -/
theorem blk4 (c : Dev nD) (t : Fin cfg0.N) (g : Fin 4) (h : Fin 2048) (k : Fin 512) :
    (iblk m c 4 t : Vec Ideal S4x2048x512 .bf16) (ix3 g h k) = argWh m c (ix2 (gateRow g h) k) := by
  unfold iblk
  rw [View.read_apply]
  show V m c main_v3 _ = _
  rw [V_wh]
  refine shapeCast_apply _ _ _ (ix2 (gateRow g h) k) ?_
  rw [Shape.rowMajor_val_two, Shape.rowMajor_val_three]
  show (2048 * g.val + h.val) * 512 + k.val
    = ((win0_4.index t 0 * 4 + 1 * g.val) * 2048 + (win0_4.index t 1 * 2048 + 1 * h.val)) * 512 + (win0_4.index t 2 * 512 + 1 * k.val)
  rw [(index4 t).1, (index4 t).2.1, (index4 t).2.2]; omega

/-- The resident projection weights. -/
theorem blk5 (c : Dev nD) (t : Fin cfg0.N) (p : Fin 512) (h : Fin 2048) :
    (iblk m c 5 t : Vec Ideal S512x2048 .bf16) (ix2 p h) = argWp m c (ix2 p h) := by
  unfold iblk
  rw [View.read_apply]
  show V m c main_v4 _ = _
  rw [V_wp]
  show argWp m c _ = argWp m c _
  refine congrArg (argWp m c) (funext fun a => Fin.ext ?_)
  match a with
  | ⟨0, _⟩ => show win0_5.index t 0 * 512 + 1 * p.val = p.val; rw [(index5 t).1]; omega
  | ⟨1, _⟩ => show win0_5.index t 1 * 2048 + 1 * h.val = h.val; rw [(index5 t).2]; omega

/-- The resident bias at (g, h): the two biases of row `2048·g + h`, added. -/
theorem blk6 (c : Dev nD) (t : Fin cfg0.N) (g : Fin 4) (h : Fin 2048) :
    (iblk m c 6 t : Vec Ideal S4x2048 .f32) (ix2 g h) = argBx m c (ix1 (gateRow g h)) + argBh m c (ix1 (gateRow g h)) := by
  unfold iblk
  rw [View.read_apply]
  show V m c main_v6 _ = _
  rw [V_b]
  refine (shapeCast_apply _ _ _ (ix1 (gateRow g h)) ?_).trans rfl
  rw [Shape.rowMajor_val_one, Shape.rowMajor_val_two]
  show 2048 * g.val + h.val = (win0_6.index t 0 * 4 + 1 * g.val) * 2048 + (win0_6.index t 1 * 2048 + 1 * h.val)
  rw [(index6 t).1, (index6 t).2]; omega

/-- So a point's blocks read as the tile module asks. -/
theorem reads (c : Dev nD) (t : Fin cfg0.N) :
    Reads (argX m c) (argWx m c) (argHx m c) (argWh m c) (argCx m c) (argBx m c) (argBh m c) (argWp m c)
      (grid0.coords t) (btOf t) (ktOf t) (iblk m c 0 t) (iblk m c 1 t) (iblk m c 2 t) (iblk m c 3 t) (iblk m c 4 t)
      (iblk m c 5 t) (iblk m c 6 t) where
  hi := coord1 t
  h0 := blk0 m c t
  h1 := blk1 m c t
  h2 := blk2 m c t
  h3 := blk3 m c t
  h4 := blk4 m c t
  h5 := blk5 m c t
  h6 := blk6 m c t

end Cert.KernelIdeal.Blocks

end
-- ==== Proof.Invariant.lean ====
/-
  What the two outputs' staging buffers and the carried accumulator hold after each grid point.

  Points run batch tile by batch tile, and within a batch tile hidden tile 0, 1, …, 7. The accumulator is zeroed at
  hidden tile 0 and gains one tile's 256 terms of the projection at every point, so after hidden tile `k` it holds,
  at row `r` and output unit `p`, the total of the first `k + 1` runs of 256 terms of
      ∑ₕ gated[256·bt + r, h] · w_proj[p, h]
  — by induction on the point, each step being "what the point before left, plus this tile's terms". After hidden
  tile 7 that is the whole sum, the hidden state, which the last point copies into the hidden-state output. The
  cell-state output holds the point's cell tile after every point, with no dependence on earlier points.
-/
import proofs.«135376_j61710090109320_2_alg».proof.Proof.Blocks

set_option maxRecDepth 16384

noncomputable section

namespace Cert.KernelIdeal.Inv

open Cert.KernelIdeal Cert.KernelIdeal.Gen Idealize.ShloMosaic Idealize.ShloMosaic.TcCoe Idealize.SL.Sem
open Idealize.ShloMosaic.ValueIdx Cert.KernelIdeal.Body Cert.KernelIdeal.Tile Cert.KernelIdeal.Blocks Cert.KernelIdeal.Pieces Cert.Spec

/-! ## Runs of 256 terms, by hidden tile -/

/-- One more hidden tile: the total so far plus that tile's 256 terms. -/
theorem runs_tile (f : Fin 2048 → EReal) (kt : Fin 8) :
    runs f (kt.val + 1) = runs f kt.val + ∑ j : Fin 256, f (hcol kt j) :=
  runs_succ f kt.val kt.isLt

/-- The first tile, onto a zeroed accumulator. -/
theorem first_tile (f : Fin 2048 → EReal) (kt : Fin 8) (hk : kt.val = 0) (z : EReal) (hz : z = 0) :
    z + ∑ j : Fin 256, f (hcol kt j) = runs f (kt.val + 1) := by
  rw [runs_tile, hz, hk, runs_zero]

/-- A later tile, onto the total of the tiles before it. -/
theorem next_tile (f : Fin 2048 → EReal) (kt : Fin 8) (prev : EReal) (hp : prev = runs f kt.val) :
    prev + ∑ j : Fin 256, f (hcol kt j) = runs f (kt.val + 1) := by
  rw [runs_tile, hp]

variable (m : (ℓ : Loc nD τ sig) → Buf (Elt Ideal) ℓ)

/-- The projection's term at hidden unit `h`, for batch row `b` and output unit `p`. -/
def projTerm (c : Dev nD) (b : Fin 8192) (p : Fin 512) : Fin 2048 → EReal :=
  fun h => gated (argX m c) (argWx m c) (argHx m c) (argWh m c) (argCx m c) (argBx m c) (argBh m c) b h * argWp m c (ix2 p h)

/-! ## The accumulator after each point -/

/-- After point `t` (hidden tile `t % 8` of batch tile `t / 8`) the accumulator holds the first `t % 8 + 1` runs of
    the projection's terms: by induction on the point. -/
theorem acc_at (c : Dev nD) : ∀ (k : ℕ) (t : Fin cfg0.N), t.val = k → ∀ (r : Fin 256) (p : Fin 512),
    (outsAt0 m c t.val t.isLt).2.2 (ix2 r p) = runs (projTerm m c (brow (btOf t) r) p) ((ktOf t).val + 1) := by
  intro k
  induction k with
  | zero =>
    intro t ht r p
    have h0 : t.val % 8 = 0 := by omega
    have h1 : ¬t.val % 8 = 7 := by omega
    rw [outsAt0_A m c t h0 h1]
    dsimp only
    rw [Pieces.acc_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t),
      accStep_apply (reads m c t) (k0_pay2 (F := Ideal)) r p]
    exact first_tile (projTerm m c (brow (btOf t) r) p) (ktOf t) h0 _ (pay2_apply _)
  | succ k ih =>
    intro t ht r p
    have hN : t.val < 256 := t_lt t
    by_cases h0 : t.val % 8 = 0
    · have h1 : ¬t.val % 8 = 7 := by omega
      rw [outsAt0_A m c t h0 h1]
      dsimp only
      rw [Pieces.acc_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t),
        accStep_apply (reads m c t) (k0_pay2 (F := Ideal)) r p]
      exact first_tile (projTerm m c (brow (btOf t) r) p) (ktOf t) h0 _ (pay2_apply _)
    · -- what the point before left: the total of the hidden tiles before this one, of the same batch tile
      have hprev : (outsAt0 m c (t.val - 1) (Nat.lt_of_le_of_lt (Nat.sub_le _ _) t.isLt)).2.2 (ix2 r p)
          = runs (projTerm m c (brow (btOf t) r) p) (ktOf t).val := by
        have hi := ih ⟨t.val - 1, Nat.lt_of_le_of_lt (Nat.sub_le _ _) t.isLt⟩ (by show t.val - 1 = k; omega) r p
        have hb : btOf ⟨t.val - 1, Nat.lt_of_le_of_lt (Nat.sub_le _ _) t.isLt⟩ = btOf t :=
          Fin.ext (by show (t.val - 1) / 8 = t.val / 8; omega)
        have hk : (ktOf ⟨t.val - 1, Nat.lt_of_le_of_lt (Nat.sub_le _ _) t.isLt⟩).val + 1 = (ktOf t).val := by
          show (t.val - 1) % 8 + 1 = t.val % 8; omega
        rw [hb, hk] at hi
        exact hi
      by_cases h1 : t.val % 8 = 7
      · rw [outsAt0_C m c t h0 h1]
        dsimp only
        rw [Pieces.acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2,
          accStep_apply (reads m c t) _ r p]
        exact next_tile (projTerm m c (brow (btOf t) r) p) (ktOf t) _ hprev
      · rw [outsAt0_B m c t h0 h1]
        dsimp only
        rw [Pieces.acc_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2,
          accStep_apply (reads m c t) _ r p]
        exact next_tile (projTerm m c (brow (btOf t) r) p) (ktOf t) _ hprev

theorem acc_after (c : Dev nD) (t : Fin cfg0.N) (r : Fin 256) (p : Fin 512) :
    (outsAt0 m c t.val t.isLt).2.2 (ix2 r p) = runs (projTerm m c (brow (btOf t) r) p) ((ktOf t).val + 1) :=
  acc_at m c t.val t rfl r p

/-! ## The two outputs after each point -/

/-- After any point the cell-state output's staging buffer holds the specification's cell state at the point's rows
    and columns. -/
theorem cell_after (c : Dev nD) (t : Fin cfg0.N) (r j : Fin 256) :
    (outsAt0 m c t.val t.isLt).2.1 (ix2 r j)
      = cell (argX m c) (argWx m c) (argHx m c) (argWh m c) (argCx m c) (argBx m c) (argBh m c)
          (brow (btOf t) r) (hcol (ktOf t) j) := by
  have hN : t.val < 256 := t_lt t
  by_cases h0 : t.val % 8 = 0
  · have h1 : ¬t.val % 8 = 7 := by omega
    rw [outsAt0_A m c t h0 h1]
    dsimp only
    rw [Pieces.cell_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)]
    exact cellTile_apply (reads m c t) r j
  · by_cases h1 : t.val % 8 = 7
    · rw [outsAt0_C m c t h0 h1]
      dsimp only
      rw [Pieces.cell_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2]
      exact cellTile_apply (reads m c t) r j
    · rw [outsAt0_B m c t h0 h1]
      dsimp only
      rw [Pieces.cell_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2]
      exact cellTile_apply (reads m c t) r j

/-- After the last hidden tile of a batch tile the hidden-state output's staging buffer holds the specification's
    hidden state at the batch tile's rows: the finished accumulator, all eight runs of the projection's terms. -/
theorem hidden_after (c : Dev nD) (t : Fin cfg0.N) (h7 : t.val % 8 = 7) (r : Fin 256) (p : Fin 512) :
    (outsAt0 m c t.val t.isLt).1 (ix2 r p)
      = hidden (argX m c) (argWx m c) (argHx m c) (argWh m c) (argCx m c) (argBx m c) (argBh m c) (argWp m c)
          (brow (btOf t) r) p := by
  have h0 : ¬t.val % 8 = 0 := by omega
  have hacc := acc_after m c t r p
  rw [outsAt0_C m c t h0 h7] at hacc ⊢
  dsimp only at hacc ⊢
  rw [Pieces.hid_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2]
  rw [Pieces.acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2] at hacc
  rw [hacc, show (ktOf t).val + 1 = 8 from by rw [ktOf_val, h7]]
  exact runs_eight _

end Cert.KernelIdeal.Inv

end
-- ==== Proof.Final.lean ====
/-
  From what each grid point writes back to what the two result arrays hold after the run.

  Point `t` works on batch tile `t / 8` and hidden tile `t % 8`. Every point writes its 256 × 256 cell tile back to
  rows 256·(t / 8) …, columns 256·(t % 8) … of the cell-state array; the 32 × 8 tiles fill the [8192, 2048] array, the
  tile holding row `b`, column `h` being that of point 8·(b / 256) + h / 256. Only the last hidden tile of a batch
  tile (t % 8 = 7) writes the hidden-state array: the finished 256 × 512 block of rows 256·(t / 8) …, all 512
  columns; the 32 blocks fill the [8192, 512] array, row `b` lying in the block of point 8·(b / 256) + 7. Each
  written block is the specification's array read at the block's rows and columns, so each array ends as the
  specification's array.
-/
import proofs.«135376_j61710090109320_2_alg».proof.Proof.Invariant
import proofs.«135376_j61710090109320_2_alg».proof.Proof.Gen.KernelIdeal.Value
import Idealize.ShloMosaic.Lib.Pipeline.Value

set_option maxRecDepth 16384

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Tile Cert.KernelIdeal.Blocks Cert.Spec

/-! ## The specification's arrays at a tile's rows and columns -/

section arrays

variable (x wx : (⟨2, ![8192, 1024]⟩ : Shape).Idx → EReal) (hx wh : (⟨2, ![8192, 512]⟩ : Shape).Idx → EReal)
  (cx : (⟨2, ![8192, 2048]⟩ : Shape).Idx → EReal) (bx bh : (⟨1, ![8192]⟩ : Shape).Idx → EReal)
  (wp : (⟨2, ![512, 2048]⟩ : Shape).Idx → EReal)

/-- The cell-state array at an index whose row is row `r` of batch tile `bt` and whose column is unit `j` of hidden
    tile `kt`. -/
theorem cellArr_tile (bt : Fin 32) (kt : Fin 8) (r j : Fin 256) (i : (⟨2, ![8192, 2048]⟩ : Shape).Idx)
    (h0 : (i 0).val = 256 * bt.val + r.val) (h1 : (i 1).val = 256 * kt.val + j.val) :
    cellArr x wx hx wh cx bx bh i = cell x wx hx wh cx bx bh (brow bt r) (hcol kt j) := by
  unfold cellArr
  have e0 : (⟨(i 0).val, (i 0).isLt⟩ : Fin 8192) = brow bt r := Fin.ext h0
  have e1 : (⟨(i 1).val, (i 1).isLt⟩ : Fin 2048) = hcol kt j := Fin.ext h1
  rw [e0, e1]

/-- The hidden-state array at an index whose row is row `r` of batch tile `bt` and whose column is output unit `p`. -/
theorem hiddenArr_tile (bt : Fin 32) (r : Fin 256) (p : Fin 512) (i : (⟨2, ![8192, 512]⟩ : Shape).Idx)
    (h0 : (i 0).val = 256 * bt.val + r.val) (h1 : (i 1).val = p.val) :
    hiddenArr x wx hx wh cx bx bh wp i = hidden x wx hx wh cx bx bh wp (brow bt r) p := by
  unfold hiddenArr
  have e0 : (⟨(i 0).val, (i 0).isLt⟩ : Fin 8192) = brow bt r := Fin.ext h0
  have e1 : (⟨(i 1).val, (i 1).isLt⟩ : Fin 512) = p := Fin.ext h1
  rw [e0, e1]

end arrays

/-! ## Which block each point writes -/

/-- The hidden-state output is cut by batch tile only; the cell-state output by batch tile and hidden tile. -/
theorem index7 : ∀ t : Fin cfg0.N, win0_7.index t 0 = t.val / 8 ∧ win0_7.index t 1 = 0 :=
  (by decide +kernel : ∀ t : Fin grid0.N, win0_7.index t 0 = t.val / 8 ∧ win0_7.index t 1 = 0)
theorem index8 : ∀ t : Fin cfg0.N, win0_8.index t 0 = t.val / 8 ∧ win0_8.index t 1 = t.val % 8 :=
  (by decide +kernel : ∀ t : Fin grid0.N, win0_8.index t 0 = t.val / 8 ∧ win0_8.index t 1 = t.val % 8)

variable (m : (ℓ : Loc nD τ sig) → Buf (Elt Ideal) ℓ) (ρ : Dev nD → PrngReg)

/-! ## The cell-state array -/

/-- What point `t` writes back to the cell-state array is the specification's cell-state array read through the
    point's block: rows of batch tile `t / 8`, columns of hidden tile `t % 8`. -/
theorem flushed_cell (c : Dev nD) (t : Fin cfg0.N) :
    (dats m 0 c).flushed 8 t = ((cfg0.win 8).blk t).view.read (Elt Ideal)
      (cellArr (argX m c) (argWx m c) (argHx m c) (argWh m c) (argCx m c) (argBx m c) (argBh m c)) := by
  rw [Cert.KernelIdeal.Value.flushed8]
  refine funext fun (y : S256x256.Idx) => ?_
  obtain ⟨r, j, rfl⟩ : ∃ (r j : Fin 256), y = ix2 r j := ⟨y 0, y 1, eq_ix2 y⟩
  rw [View.read_apply]
  refine (Inv.cell_after m c t r j).trans (cellArr_tile _ _ _ _ _ _ _ (btOf t) (ktOf t) r j _ ?_ ?_).symm
  · show win0_8.index t 0 * 256 + 1 * r.val = 256 * (t.val / 8) + r.val
    rw [(index8 t).1]; omega
  · show win0_8.index t 1 * 256 + 1 * j.val = 256 * (t.val % 8) + j.val
    rw [(index8 t).2]; omega

/-- The point working on batch tile `b / 256` and hidden tile `h / 256`. -/
def pointOf (b : Fin 8192) (h : Fin 2048) : Fin cfg0.N :=
  ⟨8 * (b.val / 256) + h.val / 256, by
    rw [show cfg0.N = 256 from N_0]; have := b.isLt; have := h.isLt; omega⟩

/-- Every index of the cell-state array lies in the block of the point of its batch tile and hidden tile. -/
theorem cover_cell (i : S8192x2048.Idx) :
    ∃ t : Fin cfg0.N, (cfg0.win 8).flush t = true ∧ i ∈ ((cfg0.win 8).blk t).view.set := by
  have hi0 : (i 0).val < 8192 := (i 0).isLt
  have hi1 : (i 1).val < 2048 := (i 1).isLt
  refine ⟨pointOf ⟨(i 0).val, hi0⟩ ⟨(i 1).val, hi1⟩, flush0_8 _, ?_⟩
  generalize ht : pointOf ⟨(i 0).val, hi0⟩ ⟨(i 1).val, hi1⟩ = t
  have hv : t.val = 8 * ((i 0).val / 256) + (i 1).val / 256 := by rw [← ht]; rfl
  show i ∈ ((View.whole main_v7_1).slice (win0_8.rect t)).set
  rw [View.set_slice_whole, Rect.mem_set_unit]
  intro a
  match a with
  | ⟨0, _⟩ =>
    show win0_8.index t 0 * 256 ≤ (i 0).val ∧ (i 0).val < win0_8.index t 0 * 256 + 256
    rw [(index8 t).1]; omega
  | ⟨1, _⟩ =>
    show win0_8.index t 1 * 256 ≤ (i 1).val ∧ (i 1).val < win0_8.index t 1 * 256 + 256
    rw [(index8 t).2]; omega

/-- After the run the cell-state array is the specification's. -/
theorem final_cell (c : Dev nD) : (dats m 0 c).arrAt 8 cfg0.N
    = cellArr (argX m c) (argWx m c) (argHx m c) (argWh m c) (argCx m c) (argBx m c) (argBh m c) :=
  (dats m 0 c).arrAt_eq_of_cover 8 _ (fun t _ => flushed_cell m c t) cover_cell

/-! ## The hidden-state array -/

/-- What the last hidden tile's point of a batch tile writes back to the hidden-state array is the specification's
    hidden-state array read through the point's block: rows of batch tile `t / 8`, every column. -/
theorem flushed_hidden (c : Dev nD) (t : Fin cfg0.N) (hf : (cfg0.win 7).flush t = true) :
    (dats m 0 c).flushed 7 t = ((cfg0.win 7).blk t).view.read (Elt Ideal)
      (hiddenArr (argX m c) (argWx m c) (argHx m c) (argWh m c) (argCx m c) (argBx m c) (argBh m c) (argWp m c)) := by
  have h7 : t.val % 8 = 7 := (flush0_7 t).mp hf
  rw [Cert.KernelIdeal.Value.flushed7]
  refine funext fun (y : S256x512.Idx) => ?_
  obtain ⟨r, p, rfl⟩ : ∃ (r : Fin 256) (p : Fin 512), y = ix2 r p := ⟨y 0, y 1, eq_ix2 y⟩
  rw [View.read_apply]
  refine (Inv.hidden_after m c t h7 r p).trans (hiddenArr_tile _ _ _ _ _ _ _ _ (btOf t) r p _ ?_ ?_).symm
  · show win0_7.index t 0 * 256 + 1 * r.val = 256 * (t.val / 8) + r.val
    rw [(index7 t).1]; omega
  · show win0_7.index t 1 * 512 + 1 * p.val = p.val
    rw [(index7 t).2]; omega

/-- The last hidden tile's point of batch tile `b / 256`. -/
def lastPointOf (b : Fin 8192) : Fin cfg0.N :=
  ⟨8 * (b.val / 256) + 7, by rw [show cfg0.N = 256 from N_0]; have := b.isLt; omega⟩

/-- Every index of the hidden-state array lies in the block written by the last point of its batch tile. -/
theorem cover_hidden (i : S8192x512.Idx) :
    ∃ t : Fin cfg0.N, (cfg0.win 7).flush t = true ∧ i ∈ ((cfg0.win 7).blk t).view.set := by
  have hi0 : (i 0).val < 8192 := (i 0).isLt
  have hi1 : (i 1).val < 512 := (i 1).isLt
  generalize ht : lastPointOf ⟨(i 0).val, hi0⟩ = t
  have hv : t.val = 8 * ((i 0).val / 256) + 7 := by rw [← ht]; rfl
  refine ⟨t, (flush0_7 t).mpr (by omega), ?_⟩
  show i ∈ ((View.whole main_v7_0).slice (win0_7.rect t)).set
  rw [View.set_slice_whole, Rect.mem_set_unit]
  intro a
  match a with
  | ⟨0, _⟩ =>
    show win0_7.index t 0 * 256 ≤ (i 0).val ∧ (i 0).val < win0_7.index t 0 * 256 + 256
    rw [(index7 t).1]; omega
  | ⟨1, _⟩ =>
    show win0_7.index t 1 * 512 ≤ (i 1).val ∧ (i 1).val < win0_7.index t 1 * 512 + 512
    rw [(index7 t).2]; omega

/-- After the run the hidden-state array is the specification's. -/
theorem final_hidden (c : Dev nD) : (dats m 0 c).arrAt 7 cfg0.N
    = hiddenArr (argX m c) (argWx m c) (argHx m c) (argWh m c) (argCx m c) (argBx m c) (argBh m c) (argWp m c) :=
  (dats m 0 c).arrAt_eq_of_cover 7 _ (flushed_hidden m c) cover_hidden

/-! ## The run, read -/

/-- The run leaves the specification's hidden-state and cell-state arrays in the two results and the eight
    arguments as they were. -/
theorem run : θ_run defs (onTc (τ := τ) (main (F := Ideal))) ⟨m, fun _ => 0, ρ⟩ fun r => ∀ c : Dev nD,
      r.2.mem ((c : Thread nD τ).loc main_v7_0) = Cert.Spec.hiddenArr (argX m c) (argWx m c) (argHx m c) (argWh m c) (argCx m c) (argBx m c) (argBh m c) (argWp m c)
      ∧ r.2.mem ((c : Thread nD τ).loc main_v7_1) = Cert.Spec.cellArr (argX m c) (argWx m c) (argHx m c) (argWh m c) (argCx m c) (argBx m c) (argBh m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_hidden m c), (h c).2.1.trans (final_cell m c), (h c).2.2⟩)
    (Cert.KernelIdeal.Value.run_blocks m ρ)

end Cert.KernelIdeal.Final

end
-- ==== Proof.RefValue.lean ====
/-
  The reference program, read index by index, is the specification.

  The reference first forms one stacked array of pre-activations over [8192, 8192]: at batch row `b` and stacked
  column `c` it is ((∑ₖ x[b,k]·w_x[c,k] + b_x[c]) + ∑ₖ hx[b,k]·w_h[c,k]) + b_h[c], the two weight matrices being read
  through their transposes and the two biases through a broadcast along the batch axis. Gate `g` is the block of
  columns 2048·g … 2048·g + 2047 of that array, so gate `g` at hidden unit `h` reads stacked column 2048·g + h.
  The new cell state is gate 1 times the old cell state plus gate 0 times gate 2, elementwise; the new hidden state is
  the contraction over the hidden axis of gate 3 times tanh of the new cell state with the transposed projection.
  The additions are made in the specification's own order, so only the indices have to be matched.
-/
import proofs.«135376_j61710090109320_2_alg».proof.Proof.Gen.ReferenceIdeal.Read
import proofs.«135376_j61710090109320_2_alg».proof.Proof.Spec

noncomputable section

namespace Cert.ReferenceIdeal.RefValue

open Cert.ReferenceIdeal Cert.ReferenceIdeal.Read Idealize.ShloMosaic Idealize.ShloMosaic.ValueIdx

/-! ## The index maps of the stacked array, at coordinates -/

/-- The input product reads the input at (batch row, k). -/
theorem lidx_v1 (b c : Fin 8192) (k : Fin 1024) : lidx_main_v1 (ix2 b c) k = ix2 b k :=
  funext fun a => Fin.ext (by match a with | ⟨0, _⟩ => rfl | ⟨1, _⟩ => rfl)

/-- Through the transpose, the input product reads the input weights at (stacked column, k). -/
theorem ridx_v1 (b c : Fin 8192) (k : Fin 1024) : idx_main_v0 (ridx_main_v1 (ix2 b c) k) = ix2 c k :=
  funext fun a => Fin.ext (by match a with | ⟨0, _⟩ => rfl | ⟨1, _⟩ => rfl)

/-- Through the two broadcasts, the input bias is read at the stacked column. -/
theorem idx_v3 (b c : Fin 8192) : idx_main_v2 (idx_main_v3 (ix2 b c)) = ix1 c :=
  funext fun a => Fin.ext (by match a with | ⟨0, _⟩ => rfl)

/-- The recurrent product reads the previous hidden state at (batch row, k). -/
theorem lidx_v6 (b c : Fin 8192) (k : Fin 512) : lidx_main_v6 (ix2 b c) k = ix2 b k :=
  funext fun a => Fin.ext (by match a with | ⟨0, _⟩ => rfl | ⟨1, _⟩ => rfl)

/-- Through the transpose, the recurrent product reads the recurrent weights at (stacked column, k). -/
theorem ridx_v6 (b c : Fin 8192) (k : Fin 512) : idx_main_v5 (ridx_main_v6 (ix2 b c) k) = ix2 c k :=
  funext fun a => Fin.ext (by match a with | ⟨0, _⟩ => rfl | ⟨1, _⟩ => rfl)

/-- Through the two broadcasts, the recurrent bias is read at the stacked column. -/
theorem idx_v9 (b c : Fin 8192) : idx_main_v8 (idx_main_v9 (ix2 b c)) = ix1 c :=
  funext fun a => Fin.ext (by match a with | ⟨0, _⟩ => rfl)

section values

variable (x0 x3 : (⟨S8192x1024, .f32⟩ : BufTy).Contents (Elt Ideal))
  (x1 x5 : (⟨S8192x512, .f32⟩ : BufTy).Contents (Elt Ideal))
  (x2 : (⟨S8192x2048, .f32⟩ : BufTy).Contents (Elt Ideal))
  (x4 x6 : (⟨S8192, .f32⟩ : BufTy).Contents (Elt Ideal))
  (x7 : (⟨S512x2048, .f32⟩ : BufTy).Contents (Elt Ideal))

/-! ## The stacked pre-activations -/

/-- The stacked array at batch row `b`, stacked column `c`: input products, input bias, recurrent products,
    recurrent bias, added in that order. -/
theorem stacked_eq (b c : Fin 8192) :
    val_main_v10 (F := Ideal) x0 x1 x3 x4 x5 x6 (ix2 b c)
      = (((∑ k : Fin 1024, x0 (ix2 b k) * x3 (ix2 c k)) + x4 (ix1 c))
          + ∑ k : Fin 512, x1 (ix2 b k) * x5 (ix2 c k)) + x6 (ix1 c) := by
  rw [val_main_v10_apply, val_main_v7_apply, val_main_v4_apply, val_main_v1_apply, val_main_v3_apply,
    val_main_v2_apply, val_main_v6_apply, val_main_v9_apply, val_main_v8_apply]
  simp only [val_main_v0_apply, val_main_v5_apply, lidx_v1, ridx_v1, idx_v3, lidx_v6, ridx_v6, idx_v9,
    Ideal.addf_def]

/-! ## The four gates: blocks of 2048 stacked columns -/

/-- Gate 0 takes stacked columns 0 … 2047: hidden unit `h` reads column `h`. -/
theorem idx_v11 (b : Fin 8192) (h : Fin 2048) : idx_main_v11 (ix2 b h) = ix2 b (Cert.Spec.gateRow 0 h) :=
  funext fun a => Fin.ext (by match a with | ⟨0, _⟩ => rfl | ⟨1, _⟩ => exact (Nat.zero_add _).symm)

/-- Gate 1 takes stacked columns 2048 … 4095: hidden unit `h` reads column 2048 + `h`. -/
theorem idx_v12 (b : Fin 8192) (h : Fin 2048) : idx_main_v12 (ix2 b h) = ix2 b (Cert.Spec.gateRow 1 h) :=
  funext fun a => Fin.ext (by match a with | ⟨0, _⟩ => rfl | ⟨1, _⟩ => rfl)

/-- Gate 2 takes stacked columns 4096 … 6143: hidden unit `h` reads column 4096 + `h`. -/
theorem idx_v13 (b : Fin 8192) (h : Fin 2048) : idx_main_v13 (ix2 b h) = ix2 b (Cert.Spec.gateRow 2 h) :=
  funext fun a => Fin.ext (by match a with | ⟨0, _⟩ => rfl | ⟨1, _⟩ => rfl)

/-- Gate 3 takes stacked columns 6144 … 8191: hidden unit `h` reads column 6144 + `h`. -/
theorem idx_v14 (b : Fin 8192) (h : Fin 2048) : idx_main_v14 (ix2 b h) = ix2 b (Cert.Spec.gateRow 3 h) :=
  funext fun a => Fin.ext (by match a with | ⟨0, _⟩ => rfl | ⟨1, _⟩ => rfl)

/-- The first block of the stacked array is gate 0. -/
theorem gate0_eq (b : Fin 8192) (h : Fin 2048) :
    val_main_v11 (F := Ideal) x0 x1 x3 x4 x5 x6 (ix2 b h) = Cert.Spec.gate x0 x3 x1 x5 x4 x6 0 b h := by
  rw [val_main_v11_apply, idx_v11, stacked_eq]; rfl

/-- The second block of the stacked array is gate 1. -/
theorem gate1_eq (b : Fin 8192) (h : Fin 2048) :
    val_main_v12 (F := Ideal) x0 x1 x3 x4 x5 x6 (ix2 b h) = Cert.Spec.gate x0 x3 x1 x5 x4 x6 1 b h := by
  rw [val_main_v12_apply, idx_v12, stacked_eq]; rfl

/-- The third block of the stacked array is gate 2. -/
theorem gate2_eq (b : Fin 8192) (h : Fin 2048) :
    val_main_v13 (F := Ideal) x0 x1 x3 x4 x5 x6 (ix2 b h) = Cert.Spec.gate x0 x3 x1 x5 x4 x6 2 b h := by
  rw [val_main_v13_apply, idx_v13, stacked_eq]; rfl

/-- The fourth block of the stacked array is gate 3. -/
theorem gate3_eq (b : Fin 8192) (h : Fin 2048) :
    val_main_v14 (F := Ideal) x0 x1 x3 x4 x5 x6 (ix2 b h) = Cert.Spec.gate x0 x3 x1 x5 x4 x6 3 b h := by
  rw [val_main_v14_apply, idx_v14, stacked_eq]; rfl

/-! ## The new cell state -/

/-- Gate 1 times the old cell state, plus gate 0 times gate 2, at one index. -/
theorem cell_at (b : Fin 8192) (h : Fin 2048) :
    val_main_v17 (F := Ideal) x0 x1 x2 x3 x4 x5 x6 (ix2 b h) = Cert.Spec.cell x0 x3 x1 x5 x2 x4 x6 b h := by
  rw [val_main_v17_apply, val_main_v15_apply, val_main_v16_apply, gate1_eq, gate0_eq, gate2_eq,
    Ideal.addf_def, Ideal.mulf_def, Ideal.mulf_def]
  rfl

/-- The reference's cell-state result is the specification's cell-state array. -/
theorem cell_eq :
    val_main_v17 (F := Ideal) x0 x1 x2 x3 x4 x5 x6 = Cert.Spec.cellArr x0 x3 x1 x5 x2 x4 x6 := by
  funext i
  obtain ⟨b, h, rfl⟩ : ∃ (b : Fin 8192) (h : Fin 2048), i = ix2 b h := ⟨i 0, i 1, eq_ix2 i⟩
  rw [cell_at]
  rfl

/-! ## The new hidden state -/

/-- Gate 3 times tanh of the new cell state, at one index. -/
theorem gated_at (b : Fin 8192) (h : Fin 2048) :
    val_main_v19 (F := Ideal) x0 x1 x2 x3 x4 x5 x6 (ix2 b h) = Cert.Spec.gated x0 x3 x1 x5 x2 x4 x6 b h := by
  rw [val_main_v19_apply, val_main_v18_apply, gate3_eq, cell_at, Ideal.mulf_def, Ideal.hostUnary_tanh_def]
  rfl

/-- The projection reads the gated cell state at (batch row, hidden unit). -/
theorem lidx_v21 (b : Fin 8192) (p : Fin 512) (k : Fin 2048) : lidx_main_v21 (ix2 b p) k = ix2 b k :=
  funext fun a => Fin.ext (by match a with | ⟨0, _⟩ => rfl | ⟨1, _⟩ => rfl)

/-- Through the transpose, the projection reads its weights at (output unit, hidden unit). -/
theorem ridx_v21 (b : Fin 8192) (p : Fin 512) (k : Fin 2048) :
    idx_main_v20 (ridx_main_v21 (ix2 b p) k) = ix2 p k :=
  funext fun a => Fin.ext (by match a with | ⟨0, _⟩ => rfl | ⟨1, _⟩ => rfl)

/-- The contraction of the gated cell state with the projection weights along the hidden axis, at one index. -/
theorem hidden_at (b : Fin 8192) (p : Fin 512) :
    val_main_v21 (F := Ideal) x0 x1 x2 x3 x4 x5 x6 x7 (ix2 b p)
      = Cert.Spec.hidden x0 x3 x1 x5 x2 x4 x6 x7 b p := by
  rw [val_main_v21_apply]
  simp only [val_main_v20_apply, lidx_v21, ridx_v21, gated_at]
  rfl

/-- The reference's hidden-state result is the specification's hidden-state array. -/
theorem hidden_eq :
    val_main_v21 (F := Ideal) x0 x1 x2 x3 x4 x5 x6 x7 = Cert.Spec.hiddenArr x0 x3 x1 x5 x2 x4 x6 x7 := by
  funext i
  obtain ⟨b, p, rfl⟩ : ∃ (b : Fin 8192) (p : Fin 512), i = ix2 b p := ⟨i 0, i 1, eq_ix2 i⟩
  rw [hidden_at]
  rfl

end values

end Cert.ReferenceIdeal.RefValue

end
-- ==== Proof.lean ====
/-
  One step of an LSTM with a projection, with no squashing of the gates: a tiled kernel against its plain reference,
  equal on the extended reals.

  Both programs compute, for a batch row `b`, a hidden unit `h` and an output unit `p`,
      gate g b h = ((∑ₖ x[b,k]·w_x[2048g+h,k] + b_x[2048g+h]) + ∑ₖ hx[b,k]·w_h[2048g+h,k]) + b_h[2048g+h],
      cell b h   = gate 1 b h · cx[b,h] + gate 0 b h · gate 2 b h,
      hidden b p = ∑ₕ (gate 3 b h · tanh (cell b h)) · w_proj[p,h].
  The reference does so in that order, over whole arrays. The kernel works on a grid of 32 batch tiles by 8 hidden
  tiles of 256: it adds each gate's two products first and the two biases (summed beforehand) last, and it builds
  the hidden state as a running total over the eight hidden tiles, zeroed at the first and written out at the last.
  The two arrangements agree on every extended real because only commutativity and associativity of addition
  separate them; the rounding to bf16 the kernel applies to its matrix operands is the identity on the extended
  reals, and both programs' tanh is the one function there. So the precondition (finite inputs) is never opened.

  The frames of the two kernel programs are the generated ones; the reference's frame is its generated run with the
  results dropped; the idealization rewrote nothing, so `preserves` is trivial.
-/
import proofs.«135376_j61710090109320_2_alg».proof.Defs
import proofs.«135376_j61710090109320_2_alg».proof.Proof.Gen.Kernel
import proofs.«135376_j61710090109320_2_alg».proof.Proof.Gen.Kernel.Skeleton
import proofs.«135376_j61710090109320_2_alg».proof.Proof.Gen.Kernel.Launch
import proofs.«135376_j61710090109320_2_alg».proof.Proof.Gen.Kernel.Points
import proofs.«135376_j61710090109320_2_alg».proof.Proof.Gen.Kernel.Frame
import proofs.«135376_j61710090109320_2_alg».proof.Proof.Gen.KernelIdeal
import proofs.«135376_j61710090109320_2_alg».proof.Proof.Gen.KernelIdeal.Skeleton
import proofs.«135376_j61710090109320_2_alg».proof.Proof.Gen.KernelIdeal.Launch
import proofs.«135376_j61710090109320_2_alg».proof.Proof.Gen.KernelIdeal.Points
import proofs.«135376_j61710090109320_2_alg».proof.Proof.Gen.KernelIdeal.Frame
import proofs.«135376_j61710090109320_2_alg».proof.Proof.Gen.ReferenceIdeal
import proofs.«135376_j61710090109320_2_alg».proof.Proof.Gen.Pre_finite_inputs
import proofs.«135376_j61710090109320_2_alg».proof.Proof.Gen.KernelIdeal.Value
import proofs.«135376_j61710090109320_2_alg».proof.Proof.Gen.ReferenceIdeal.Run
import proofs.«135376_j61710090109320_2_alg».proof.Proof.Gen.ReferenceIdeal.Read
import proofs.«135376_j61710090109320_2_alg».proof.Proof.Final
import proofs.«135376_j61710090109320_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the eight arguments both programs end with the hidden-state array and the
    cell-state array of the specification: the kernel by its run read block by block, the reference by its run read
    operation by operation. -/
theorem algebraic : Cert.algebraic_KernelIdeal_ReferenceIdeal := by
  intro m ρ m' ρ' _ hagree
  refine ⟨fun c => Cert.Spec.hiddenArr (Cert.KernelIdeal.Blocks.argX m c) (Cert.KernelIdeal.Blocks.argWx m c)
        (Cert.KernelIdeal.Blocks.argHx m c) (Cert.KernelIdeal.Blocks.argWh m c) (Cert.KernelIdeal.Blocks.argCx m c)
        (Cert.KernelIdeal.Blocks.argBx m c) (Cert.KernelIdeal.Blocks.argBh m c) (Cert.KernelIdeal.Blocks.argWp m c),
      fun c => Cert.Spec.cellArr (Cert.KernelIdeal.Blocks.argX m c) (Cert.KernelIdeal.Blocks.argWx m c)
        (Cert.KernelIdeal.Blocks.argHx m c) (Cert.KernelIdeal.Blocks.argWh m c) (Cert.KernelIdeal.Blocks.argCx m c)
        (Cert.KernelIdeal.Blocks.argBx m c) (Cert.KernelIdeal.Blocks.argBh m c),
      Cert.KernelIdeal.Final.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1, (hagree c).2.2.2.2.1, (hagree c).2.2.2.2.2.1, (hagree c).2.2.2.2.2.2.1, (hagree c).2.2.2.2.2.2.2]
    exact Cert.ReferenceIdeal.RefValue.hidden_eq _ _ _ _ _ _ _ _
  · rw [(hagree c).1, (hagree c).2.1, (hagree c).2.2.1, (hagree c).2.2.2.1, (hagree c).2.2.2.2.1, (hagree c).2.2.2.2.2.1, (hagree c).2.2.2.2.2.2.1]
    exact Cert.ReferenceIdeal.RefValue.cell_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
